-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S3200000x32 : Shape := ⟨2, ![3200000, 32]⟩
abbrev S1x32 : Shape := ⟨2, ![1, 32]⟩
abbrev S3200000 : Shape := ⟨1, ![3200000]⟩
abbrev S32x5 : Shape := ⟨2, ![32, 5]⟩
abbrev S5 : Shape := ⟨1, ![5]⟩
abbrev S20x5 : Shape := ⟨2, ![20, 5]⟩
abbrev S5x5 : Shape := ⟨2, ![5, 5]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x32 : S_.BroadcastsInDim S3200000x32 (![] : Fin 0 → Fin S3200000x32.rank)
  reducesTo_S3200000x32_S_d0_1 : S3200000x32.ReducesTo [0, 1] S_
  bcast_S_S1x32 : S_.BroadcastsInDim S1x32 (![] : Fin 0 → Fin S1x32.rank)
  reducesTo_S1x32_S_d0_1 : S1x32.ReducesTo [0, 1] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_
  bcast_S_S20x5 : S_.BroadcastsInDim S20x5 (![] : Fin 0 → Fin S20x5.rank)
  reducesTo_S20x5_S_d0_1 : S20x5.ReducesTo [0, 1] S_
  bcast_S_S5x5 : S_.BroadcastsInDim S5x5 (![] : Fin 0 → Fin S5x5.rank)
  reducesTo_S5x5_S_d0_1 : S5x5.ReducesTo [0, 1] S_

variable [Facts]

def fn_part4 {F : FTy → Type} [FloatOps F] (main_arg16 : FVec F S5 .f32) (main_arg17 : FVec F S5x5 .f32) (main_arg18 : FVec F S5 .f32) (main_v63 : IVec S_ 1) (main_v67 : IVec S_ 1) : IVec S_ 1 :=
  let main_v68 : IVec S_ 1 := andi main_v63 main_v67
  let main_v69 : FVec F S5 .f32 := Host.absf main_arg16
  let main_cst_26 : FVec F S_ .f32 := constant S_ .f32 0x7F800000#32
  let main_v70 : FVec F S5 .f32 := broadcastInDim S5 ![] bcast_S_S5 main_cst_26
  let main_v71 : IVec S5 1 := cmpf .olt main_v69 main_v70
  let main_c_27 : IVec S_ 1 := constantI S_ 1 1#1
  let main_v72 : IVec S_ 1 := (fun x v => Host.reduce IntOp.andi x v reducesTo_S5_S_d0 h_S_) main_v71 main_c_27
  let main_v73 : IVec S_ 1 := andi main_v68 main_v72
  let main_v74 : FVec F S5x5 .f32 := Host.absf main_arg17
  let main_cst_28 : FVec F S_ .f32 := constant S_ .f32 0x7F800000#32
  let main_v75 : FVec F S5x5 .f32 := broadcastInDim S5x5 ![] bcast_S_S5x5 main_cst_28
  let main_v76 : IVec S5x5 1 := cmpf .olt main_v74 main_v75
  let main_c_29 : IVec S_ 1 := constantI S_ 1 1#1
  let main_v77 : IVec S_ 1 := (fun x v => Host.reduce IntOp.andi x v reducesTo_S5x5_S_d0_1 h_S_) main_v76 main_c_29
  let main_v78 : IVec S_ 1 := andi main_v73 main_v77
  let main_v79 : FVec F S5 .f32 := Host.absf main_arg18
  let main_cst_30 : FVec F S_ .f32 := constant S_ .f32 0x7F800000#32
  let main_v80 : FVec F S5 .f32 := broadcastInDim S5 ![] bcast_S_S5 main_cst_30
  let main_v81 : IVec S5 1 := cmpf .olt main_v79 main_v80
  let main_c_31 : IVec S_ 1 := constantI S_ 1 1#1
  let main_v82 : IVec S_ 1 := (fun x v => Host.reduce IntOp.andi x v reducesTo_S5_S_d0 h_S_) main_v81 main_c_31
  let main_v83 : IVec S_ 1 := andi main_v78 main_v82
  main_v83

def fn_part3 {F : FTy → Type} [FloatOps F] (main_arg13 : FVec F S5x5 .f32) (main_arg14 : FVec F S5 .f32) (main_arg15 : FVec F S20x5 .f32) (main_arg16 : FVec F S5 .f32) (main_arg17 : FVec F S5x5 .f32) (main_arg18 : FVec F S5 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S5x5 .f32 := Host.absf main_arg13
  let main_cst_20 : FVec F S_ .f32 := constant S_ .f32 0x7F800000#32
  let main_v55 : FVec F S5x5 .f32 := broadcastInDim S5x5 ![] bcast_S_S5x5 main_cst_20
  let main_v56 : IVec S5x5 1 := cmpf .olt main_v54 main_v55
  let main_c_21 : IVec S_ 1 := constantI S_ 1 1#1
  let main_v57 : IVec S_ 1 := (fun x v => Host.reduce IntOp.andi x v reducesTo_S5x5_S_d0_1 h_S_) main_v56 main_c_21
  let main_v58 : IVec S_ 1 := andi main_v53 main_v57
  let main_v59 : FVec F S5 .f32 := Host.absf main_arg14
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_v64 : FVec F S20x5 .f32 := Host.absf main_arg15
  let main_cst_24 : FVec F S_ .f32 := constant S_ .f32 0x7F800000#32
  let main_v65 : FVec F S20x5 .f32 := broadcastInDim S20x5 ![] bcast_S_S20x5 main_cst_24
  let main_v66 : IVec S20x5 1 := cmpf .olt main_v64 main_v65
  let main_c_25 : IVec S_ 1 := constantI S_ 1 1#1
  let main_v67 : IVec S_ 1 := (fun x v => Host.reduce IntOp.andi x v reducesTo_S20x5_S_d0_1 h_S_) main_v66 main_c_25
  fn_part4 (F := F) main_arg16 main_arg17 main_arg18 main_v63 main_v67

def fn_part2 {F : FTy → Type} [FloatOps F] (main_arg9 : FVec F S32x5 .f32) (main_arg10 : FVec F S5 .f32) (main_arg11 : FVec F S20x5 .f32) (main_arg12 : FVec F S5 .f32) (main_arg13 : FVec F S5x5 .f32) (main_arg14 : FVec F S5 .f32) (main_arg15 : FVec F S20x5 .f32) (main_arg16 : FVec F S5 .f32) (main_arg17 : FVec F S5x5 .f32) (main_arg18 : FVec F S5 .f32) (main_v33 : IVec S_ 1) : IVec S_ 1 :=
  let main_v34 : FVec F S32x5 .f32 := Host.absf main_arg9
  let main_cst_12 : FVec F S_ .f32 := constant S_ .f32 0x7F800000#32
  let main_v35 : FVec F S32x5 .f32 := broadcastInDim S32x5 ![] bcast_S_S32x5 main_cst_12
  let main_v36 : IVec S32x5 1 := cmpf .olt main_v34 main_v35
  let main_c_13 : IVec S_ 1 := constantI S_ 1 1#1
  let main_v37 : IVec S_ 1 := (fun x v => Host.reduce IntOp.andi x v reducesTo_S32x5_S_d0_1 h_S_) main_v36 main_c_13
  let main_v38 : IVec S_ 1 := andi main_v33 main_v37
  let main_v39 : FVec F S5 .f32 := Host.absf main_arg10
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S20x5 .f32 := Host.absf main_arg11
  let main_cst_16 : FVec F S_ .f32 := constant S_ .f32 0x7F800000#32
  let main_v45 : FVec F S20x5 .f32 := broadcastInDim S20x5 ![] bcast_S_S20x5 main_cst_16
  let main_v46 : IVec S20x5 1 := cmpf .olt main_v44 main_v45
  let main_c_17 : IVec S_ 1 := constantI S_ 1 1#1
  let main_v47 : IVec S_ 1 := (fun x v => Host.reduce IntOp.andi x v reducesTo_S20x5_S_d0_1 h_S_) main_v46 main_c_17
  let main_v48 : IVec S_ 1 := andi main_v43 main_v47
  let main_v49 : FVec F S5 .f32 := Host.absf main_arg12
  let main_cst_18 : FVec F S_ .f32 := constant S_ .f32 0x7F800000#32
  let main_v50 : FVec F S5 .f32 := broadcastInDim S5 ![] bcast_S_S5 main_cst_18
  fn_part3 (F := F) main_arg13 main_arg14 main_arg15 main_arg16 main_arg17 main_arg18 main_v48 main_v49 main_v50

def fn_part1 {F : FTy → Type} [FloatOps F] (main_arg6 : FVec F S5 .f32) (main_arg7 : FVec F S32x5 .f32) (main_arg8 : FVec F S5 .f32) (main_arg9 : FVec F S32x5 .f32) (main_arg10 : FVec F S5 .f32) (main_arg11 : FVec F S20x5 .f32) (main_arg12 : FVec F S5 .f32) (main_arg13 : FVec F S5x5 .f32) (main_arg14 : FVec F S5 .f32) (main_arg15 : FVec F S20x5 .f32) (main_arg16 : FVec F S5 .f32) (main_arg17 : FVec F S5x5 .f32) (main_arg18 : FVec F S5 .f32) (main_v13 : IVec S_ 1) (main_v16 : IVec S32x5 1) : IVec S_ 1 :=
  let main_c_5 : IVec S_ 1 := constantI S_ 1 1#1
  let main_v17 : IVec S_ 1 := (fun x v => Host.reduce IntOp.andi x v reducesTo_S32x5_S_d0_1 h_S_) main_v16 main_c_5
  let main_v18 : IVec S_ 1 := andi main_v13 main_v17
  let main_v19 : FVec F S5 .f32 := Host.absf main_arg6
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S32x5 .f32 := Host.absf main_arg7
  let main_cst_8 : FVec F S_ .f32 := constant S_ .f32 0x7F800000#32
  let main_v25 : FVec F S32x5 .f32 := broadcastInDim S32x5 ![] bcast_S_S32x5 main_cst_8
  let main_v26 : IVec S32x5 1 := cmpf .olt main_v24 main_v25
  let main_c_9 : IVec S_ 1 := constantI S_ 1 1#1
  let main_v27 : IVec S_ 1 := (fun x v => Host.reduce IntOp.andi x v reducesTo_S32x5_S_d0_1 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x32 .f32) (main_arg1 : FVec F S3200000x32 .f32) (main_arg2 : FVec F S1x32 .f32) (main_arg3 : IVec S3200000 32) (main_arg4 : IVec S3200000 32) (main_arg5 : FVec F S32x5 .f32) (main_arg6 : FVec F S5 .f32) (main_arg7 : FVec F S32x5 .f32) (main_arg8 : FVec F S5 .f32) (main_arg9 : FVec F S32x5 .f32) (main_arg10 : FVec F S5 .f32) (main_arg11 : FVec F S20x5 .f32) (main_arg12 : FVec F S5 .f32) (main_arg13 : FVec F S5x5 .f32) (main_arg14 : FVec F S5 .f32) (main_arg15 : FVec F S20x5 .f32) (main_arg16 : FVec F S5 .f32) (main_arg17 : FVec F S5x5 .f32) (main_arg18 : FVec F S5 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000x32 .f32 := Host.absf main_arg1
  let main_cst_0 : FVec F S_ .f32 := constant S_ .f32 0x7F800000#32
  let main_v5 : FVec F S3200000x32 .f32 := broadcastInDim S3200000x32 ![] bcast_S_S3200000x32 main_cst_0
  let main_v6 : IVec S3200000x32 1 := cmpf .olt main_v4 main_v5
  let main_c_1 : IVec S_ 1 := constantI S_ 1 1#1
  let main_v7 : IVec S_ 1 := (fun x v => Host.reduce IntOp.andi x v reducesTo_S3200000x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x5 .f32 := Host.absf main_arg5
  let main_cst_4 : FVec F S_ .f32 := constant S_ .f32 0x7F800000#32
  let main_v15 : FVec F S32x5 .f32 := broadcastInDim S32x5 ![] bcast_S_S32x5 main_cst_4
  let main_v16 : IVec S32x5 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S3200000x32 : Shape := ⟨2, ![3200000, 32]⟩
abbrev S1x32 : Shape := ⟨2, ![1, 32]⟩
abbrev S3200000 : Shape := ⟨1, ![3200000]⟩
abbrev S32x5 : Shape := ⟨2, ![32, 5]⟩
abbrev S5 : Shape := ⟨1, ![5]⟩
abbrev S20x5 : Shape := ⟨2, ![20, 5]⟩
abbrev S5x5 : Shape := ⟨2, ![5, 5]⟩
abbrev S1x5 : Shape := ⟨2, ![1, 5]⟩
abbrev S100000x5 : Shape := ⟨2, ![100000, 5]⟩
abbrev S4000x32 : Shape := ⟨2, ![4000, 32]⟩
abbrev S4000x5 : Shape := ⟨2, ![4000, 5]⟩
abbrev S_ : Shape := ⟨0, ![]⟩
abbrev S3200000x1 : Shape := ⟨2, ![3200000, 1]⟩
abbrev S3200000x5 : Shape := ⟨2, ![3200000, 5]⟩
abbrev S5120x32 : Shape := ⟨2, ![5120, 32]⟩
abbrev S5120x5 : Shape := ⟨2, ![5120, 5]⟩

abbrev nBuf : Space → Nat
  | .hbm => 57
  | .vmem => 34
  | .smem => 0
  | _ => 0

abbrev bufTy : (tb : Table) → Fin (tcTables nBuf tb) → BufTy
  | .hbm, ⟨0, _⟩ => ⟨S100000x32, .f32⟩
  | .hbm, ⟨1, _⟩ => ⟨S3200000x32, .f32⟩
  | .hbm, ⟨2, _⟩ => ⟨S1x32, .f32⟩
  | .hbm, ⟨3, _⟩ => ⟨S3200000, .i32⟩
  | .hbm, ⟨4, _⟩ => ⟨S3200000, .i32⟩
  | .hbm, ⟨5, _⟩ => ⟨S32x5, .f32⟩
  | .hbm, ⟨6, _⟩ => ⟨S5, .f32⟩
  | .hbm, ⟨7, _⟩ => ⟨S32x5, .f32⟩
  | .hbm, ⟨8, _⟩ => ⟨S5, .f32⟩
  | .hbm, ⟨9, _⟩ => ⟨S32x5, .f32⟩
  | .hbm, ⟨10, _⟩ => ⟨S5, .f32⟩
  | .hbm, ⟨11, _⟩ => ⟨S20x5, .f32⟩
  | .hbm, ⟨12, _⟩ => ⟨S5, .f32⟩
  | .hbm, ⟨13, _⟩ => ⟨S5x5, .f32⟩
  | .hbm, ⟨14, _⟩ => ⟨S5, .f32⟩
  | .hbm, ⟨15, _⟩ => ⟨S20x5, .f32⟩
  | .hbm, ⟨16, _⟩ => ⟨S5, .f32⟩
  | .hbm, ⟨17, _⟩ => ⟨S5x5, .f32⟩
  | .hbm, ⟨18, _⟩ => ⟨S5, .f32⟩
  | .hbm, ⟨19, _⟩ => ⟨S1x5, .f32⟩
  | .hbm, ⟨20, _⟩ => ⟨S100000x5, .f32⟩
  | .hbm, ⟨21, _⟩ => ⟨S1x5, .f32⟩
  | .hbm, ⟨22, _⟩ => ⟨S1x5, .f32⟩
  | .hbm, ⟨23, _⟩ => ⟨S1x5, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x5, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x5, .f32⟩
  | .hbm, ⟨42, _⟩ => ⟨S1x5, .f32⟩
  | .hbm, ⟨43, _⟩ => ⟨S1x5, .f32⟩
  | .hbm, ⟨44, _⟩ => ⟨S1x5, .f32⟩
  | .hbm, ⟨45, _⟩ => ⟨S3200000x5, .f32⟩
  | .hbm, ⟨46, _⟩ => ⟨S_, .f32⟩
  | .hbm, ⟨47, _⟩ => ⟨S100000x5, .f32⟩
  | .hbm, ⟨48, _⟩ => ⟨S3200000x1, .i32⟩
  | .hbm, ⟨49, _⟩ => ⟨S100000x5, .f32⟩
  | .hbm, ⟨50, _⟩ => ⟨S_, .f32⟩
  | .hbm, ⟨51, _⟩ => ⟨S100000x5, .f32⟩
  | .hbm, ⟨52, _⟩ => ⟨S3200000x1, .i32⟩
  | .hbm, ⟨53, _⟩ => ⟨S100000x5, .f32⟩
  | .hbm, ⟨54, _⟩ => ⟨S1x5, .f32⟩
  | .hbm, ⟨55, _⟩ => ⟨S1x5, .f32⟩
  | .hbm, ⟨56, _⟩ => ⟨S100000x5, .f32⟩
  | .local _ .vmem, ⟨0, _⟩ => ⟨S4000x32, .f32⟩
  | .local _ .vmem, ⟨1, _⟩ => ⟨S4000x32, .f32⟩
  | .local _ .vmem, ⟨2, _⟩ => ⟨S32x5, .f32⟩
  | .local _ .vmem, ⟨3, _⟩ => ⟨S1x5, .f32⟩
  | .local _ .vmem, ⟨4, _⟩ => ⟨S4000x5, .f32⟩
  | .local _ .vmem, ⟨5, _⟩ => ⟨S4000x5, .f32⟩
  | .local _ .vmem, ⟨6, _⟩ => ⟨S5120x32, .f32⟩
  | .local _ .vmem, ⟨7, _⟩ => ⟨S5120x32, .f32⟩
  | .local _ .vmem, ⟨8, _⟩ => ⟨S5120x5, .f32⟩
  | .local _ .vmem, ⟨9, _⟩ => ⟨S5120x5, .f32⟩
  | .local _ .vmem, ⟨10, _⟩ => ⟨S5120x5, .f32⟩
  | .local _ .vmem, ⟨11, _⟩ => ⟨S5120x5, .f32⟩
  | .local _ .vmem, ⟨12, _⟩ => ⟨S1x5, .f32⟩
  | .local _ .vmem, ⟨13, _⟩ => ⟨S32x5, .f32⟩
  | .local _ .vmem, ⟨14, _⟩ => ⟨S1x5, .f32⟩
  | .local _ .vmem, ⟨15, _⟩ => ⟨S20x5, .f32⟩
  | .local _ .vmem, ⟨16, _⟩ => ⟨S1x5, .f32⟩
  | .local _ .vmem, ⟨17, _⟩ => ⟨S5x5, .f32⟩
  | .local _ .vmem, ⟨18, _⟩ => ⟨S1x5, .f32⟩
  | .local _ .vmem, ⟨19, _⟩ => ⟨S5120x5, .f32⟩
  | .local _ .vmem, ⟨20, _⟩ => ⟨S5120x5, .f32⟩
  | .local _ .vmem, ⟨21, _⟩ => ⟨S4000x5, .f32⟩
  | .local _ .vmem, ⟨22, _⟩ => ⟨S4000x5, .f32⟩
  | .local _ .vmem, ⟨23, _⟩ => ⟨S4000x5, .f32⟩
  | .local _ .vmem, ⟨24, _⟩ => ⟨S4000x5, .f32⟩
  | .local _ .vmem, ⟨25, _⟩ => ⟨S4000x5, .f32⟩
  | .local _ .vmem, ⟨26, _⟩ => ⟨S4000x5, .f32⟩
  | .local _ .vmem, ⟨27, _⟩ => ⟨S1x5, .f32⟩
  | .local _ .vmem, ⟨28, _⟩ => ⟨S20x5, .f32⟩
  | .local _ .vmem, ⟨29, _⟩ => ⟨S1x5, .f32⟩
  | .local _ .vmem, ⟨30, _⟩ => ⟨S5x5, .f32⟩
  | .local _ .vmem, ⟨31, _⟩ => ⟨S1x5, .f32⟩
  | .local _ .vmem, ⟨32, _⟩ => ⟨S4000x5, .f32⟩
  | .local _ .vmem, ⟨33, _⟩ => ⟨S4000x5, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5120x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S20x5 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x5 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5x5 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x5 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5120x5 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x5 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S20x5 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S5x5 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x5 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x5 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S5_S1x5 : S5.ShapeCasts S1x5
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x5_S32x5_0_0 : ∀ a, (![0, 0] : Fin 2 → Nat) a + S32x5.size a ≤ S32x5.size a
  h_S32x5 : 0 < S32x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S4000x5 : S1x5.Broadcasts S4000x5
  inb_S4000x5_S4000x5_0_0 : ∀ a, (![0, 0] : Fin 2 → Nat) a + S4000x5.size a ≤ S4000x5.size a
  h_S4000x5 : 0 < S4000x5.numel
  bcast_S5_S1x5_1 : S5.BroadcastsInDim S1x5 (![1] : Fin 1 → Fin S1x5.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S5120x32_S5120x32_0_0 : ∀ a, (![0, 0] : Fin 2 → Nat) a + S5120x32.size a ≤ S5120x32.size a
  h_S5120x32 : 0 < S5120x32.numel
  broadcasts_S1x5_S5120x5 : S1x5.Broadcasts S5120x5
  inb_S5120x5_S5120x5_0_0 : ∀ a, (![0, 0] : Fin 2 → Nat) a + S5120x5.size a ≤ S5120x5.size a
  h_S5120x5 : 0 < S5120x5.numel
  shapeCasts_S5120x5_S5120x5 : S5120x5.ShapeCasts S5120x5
  inb_S20x5_S20x5_0_0 : ∀ a, (![0, 0] : Fin 2 → Nat) a + S20x5.size a ≤ S20x5.size a
  h_S20x5 : 0 < S20x5.numel
  slices_S20x5_o0_0_S5x5 : S20x5.Slices ![0, 0] S5x5
  slices_S20x5_o5_0_S5x5 : S20x5.Slices ![5, 0] S5x5
  slices_S20x5_o10_0_S5x5 : S20x5.Slices ![10, 0] S5x5
  slices_S20x5_o15_0_S5x5 : S20x5.Slices ![15, 0] S5x5
  inb_S5x5_S5x5_0_0 : ∀ a, (![0, 0] : Fin 2 → Nat) a + S5x5.size a ≤ S5x5.size a
  h_S5x5 : 0 < S5x5.numel
  bcast_S_S100000x5 : S_.BroadcastsInDim S100000x5 (![] : Fin 0 → Fin S100000x5.rank)
  shapeCasts_S4000x5_S4000x5 : S4000x5.ShapeCasts S4000x5
  dot_S4000x32_S32x5_S4000x5_1_0_0_1_n_n_wf : DotDims.WF S4000x32 S32x5 S4000x5 [1] [0] [0] [1] [] []
  dot_S1x32_S32x5_S1x5_1_0_0_1_n_n_wf : DotDims.WF S1x32 S32x5 S1x5 [1] [0] [0] [1] [] []
  gather_S100000x5_S3200000x1_S3200000x5_1_0_n_n_0_1_15_wf : GatherDims.WF S100000x5 S3200000x1 S3200000x5 [1] [0] [] [0] [] 1 ![1, 5]
  dot_S5120x32_S32x5_S5120x5_1_0_0_1_n_n_wf : DotDims.WF S5120x32 S32x5 S5120x5 [1] [0] [0] [1] [] []
  dot_S5120x5_S5x5_S5120x5_1_0_0_1_n_n_wf : DotDims.WF S5120x5 S5x5 S5120x5 [1] [0] [0] [1] [] []
  dot_S1x5_S5x5_S1x5_1_0_0_1_n_n_wf : DotDims.WF S1x5 S5x5 S1x5 [1] [0] [0] [1] [] []
  scatter_S100000x5_S3200000x1_S3200000x5_1_0_0_1_wf : ScatterDims.WF S100000x5 S3200000x1 S3200000x5 [1] [0] [0] 1
  dot_S4000x5_S5x5_S4000x5_1_0_0_1_n_n_wf : DotDims.WF S4000x5 S5x5 S4000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x5.size a ≤ S32x5.size a
  hwx0_1 : ∀ i : grid0.Coords, EltTy.bits .f32 = 32 ∨ (Rect.block (s := S32x5) S32x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x5.size a ≤ S100000x5.size a
  hwx0_3 : ∀ i : grid0.Coords, EltTy.bits .f32 = 32 ∨ (Rect.block (s := S100000x5) S4000x5.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x32.size a ≤ S3200000x32.size a
  hwx1_0 : ∀ i : grid1.Coords, EltTy.bits .f32 = 32 ∨ (Rect.block (s := S3200000x32) S5120x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x5.size a ≤ S3200000x5.size a
  hwx1_1 : ∀ i : grid1.Coords, EltTy.bits .f32 = 32 ∨ (Rect.block (s := S3200000x5) S5120x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120x5.size a ≤ S3200000x5.size a
  hwx1_2 : ∀ i : grid1.Coords, EltTy.bits .f32 = 32 ∨ (Rect.block (s := S3200000x5) S5120x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5.size a ≤ S1x5.size a
  hwx1_3 : ∀ i : grid1.Coords, EltTy.bits .f32 = 32 ∨ (Rect.block (s := S1x5) S1x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x5.size a ≤ S32x5.size a
  hwx1_4 : ∀ i : grid1.Coords, EltTy.bits .f32 = 32 ∨ (Rect.block (s := S32x5) S32x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x5.size a ≤ S1x5.size a
  hwx1_5 : ∀ i : grid1.Coords, EltTy.bits .f32 = 32 ∨ (Rect.block (s := S1x5) S1x5.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S20x5.size a ≤ S20x5.size a
  hwx1_6 : ∀ i : grid1.Coords, EltTy.bits .f32 = 32 ∨ (Rect.block (s := S20x5) S20x5.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x5.size a ≤ S1x5.size a
  hwx1_7 : ∀ i : grid1.Coords, EltTy.bits .f32 = 32 ∨ (Rect.block (s := S1x5) S1x5.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S5x5.size a ≤ S5x5.size a
  hwx1_8 : ∀ i : grid1.Coords, EltTy.bits .f32 = 32 ∨ (Rect.block (s := S5x5) S5x5.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x5.size a ≤ S1x5.size a
  hwx1_9 : ∀ i : grid1.Coords, EltTy.bits .f32 = 32 ∨ (Rect.block (s := S1x5) S1x5.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5120x5.size a ≤ S3200000x5.size a
  hwx1_10 : ∀ i : grid1.Coords, EltTy.bits .f32 = 32 ∨ (Rect.block (s := S3200000x5) S5120x5.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x5.size a ≤ S100000x5.size a
  hwx2_0 : ∀ i : grid2.Coords, EltTy.bits .f32 = 32 ∨ (Rect.block (s := S100000x5) S4000x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x5.size a ≤ S100000x5.size a
  hwx2_1 : ∀ i : grid2.Coords, EltTy.bits .f32 = 32 ∨ (Rect.block (s := S100000x5) S4000x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x5.size a ≤ S100000x5.size a
  hwx2_2 : ∀ i : grid2.Coords, EltTy.bits .f32 = 32 ∨ (Rect.block (s := S100000x5) S4000x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x5.size a ≤ S1x5.size a
  hwx2_3 : ∀ i : grid2.Coords, EltTy.bits .f32 = 32 ∨ (Rect.block (s := S1x5) S1x5.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S20x5.size a ≤ S20x5.size a
  hwx2_4 : ∀ i : grid2.Coords, EltTy.bits .f32 = 32 ∨ (Rect.block (s := S20x5) S20x5.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x5.size a ≤ S1x5.size a
  hwx2_5 : ∀ i : grid2.Coords, EltTy.bits .f32 = 32 ∨ (Rect.block (s := S1x5) S1x5.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S5x5.size a ≤ S5x5.size a
  hwx2_6 : ∀ i : grid2.Coords, EltTy.bits .f32 = 32 ∨ (Rect.block (s := S5x5) S5x5.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x5.size a ≤ S1x5.size a
  hwx2_7 : ∀ i : grid2.Coords, EltTy.bits .f32 = 32 ∨ (Rect.block (s := S1x5) S1x5.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x5.size a ≤ S100000x5.size a
  hwx2_8 : ∀ i : grid2.Coords, EltTy.bits .f32 = 32 ∨ (Rect.block (s := S100000x5) S4000x5.size (cc2_transform_8 i) (hinb2_8 i)).WholeWords (EltTy.packing .f32)

variable [Facts₀]

def dot_S4000x32_S32x5_S4000x5_1_0_0_1_n_n : DotDims S4000x32 S32x5 S4000x5 where
  lhsContracting := [1]
  rhsContracting := [0]
  lhsNonContracting := [0]
  rhsNonContracting := [1]
  lhsBatch := []
  rhsBatch := []
  wf := dot_S4000x32_S32x5_S4000x5_1_0_0_1_n_n_wf
def dot_S1x32_S32x5_S1x5_1_0_0_1_n_n : DotDims S1x32 S32x5 S1x5 where
  lhsContracting := [1]
  rhsContracting := [0]
  lhsNonContracting := [0]
  rhsNonContracting := [1]
  lhsBatch := []
  rhsBatch := []
  wf := dot_S1x32_S32x5_S1x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S5120x32_S32x5_S5120x5_1_0_0_1_n_n : DotDims S5120x32 S32x5 S5120x5 where
  lhsContracting := [1]
  rhsContracting := [0]
  lhsNonContracting := [0]
  rhsNonContracting := [1]
  lhsBatch := []
  rhsBatch := []
  wf := dot_S5120x32_S32x5_S5120x5_1_0_0_1_n_n_wf
def dot_S5120x5_S5x5_S5120x5_1_0_0_1_n_n : DotDims S5120x5 S5x5 S5120x5 where
  lhsContracting := [1]
  rhsContracting := [0]
  lhsNonContracting := [0]
  rhsNonContracting := [1]
  lhsBatch := []
  rhsBatch := []
  wf := dot_S5120x5_S5x5_S5120x5_1_0_0_1_n_n_wf
def dot_S1x5_S5x5_S1x5_1_0_0_1_n_n : DotDims S1x5 S5x5 S1x5 where
  lhsContracting := [1]
  rhsContracting := [0]
  lhsNonContracting := [0]
  rhsNonContracting := [1]
  lhsBatch := []
  rhsBatch := []
  wf := dot_S1x5_S5x5_S1x5_1_0_0_1_n_n_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S4000x5_S5x5_S4000x5_1_0_0_1_n_n : DotDims S4000x5 S5x5 S4000x5 where
  lhsContracting := [1]
  rhsContracting := [0]
  lhsNonContracting := [0]
  rhsNonContracting := [1]
  lhsBatch := []
  rhsBatch := []
  wf := dot_S4000x5_S5x5_S4000x5_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S32x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5120x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5120x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5120x5.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S20x5.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x5.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S5x5.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x5.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22) S5120x5.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v1) S4000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x5.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x5.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x5.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S20x5.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x5.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S5x5.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30) S1x5.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v31) S4000x5.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x32 : Shape := ⟨2, ![100000, 32]⟩
abbrev S3200000x32 : Shape := ⟨2, ![3200000, 32]⟩
abbrev S1x32 : Shape := ⟨2, ![1, 32]⟩
abbrev S3200000 : Shape := ⟨1, ![3200000]⟩
abbrev S32x5 : Shape := ⟨2, ![32, 5]⟩
abbrev S5 : Shape := ⟨1, ![5]⟩
abbrev S20x5 : Shape := ⟨2, ![20, 5]⟩
abbrev S5x5 : Shape := ⟨2, ![5, 5]⟩
abbrev S3200000x5 : Shape := ⟨2, ![3200000, 5]⟩
abbrev S1x5 : Shape := ⟨2, ![1, 5]⟩
abbrev S100000x5 : Shape := ⟨2, ![100000, 5]⟩
abbrev S_ : Shape := ⟨0, ![]⟩
abbrev S3200000x1 : Shape := ⟨2, ![3200000, 1]⟩
abbrev S3200000x20 : Shape := ⟨2, ![3200000, 20]⟩
abbrev S100000x20 : Shape := ⟨2, ![100000, 20]⟩

abbrev nBuf : Space → Nat
  | .hbm => 88
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S3200000x32, .f32⟩
  | .hbm, ⟨2, _⟩ => ⟨S1x32, .f32⟩
  | .hbm, ⟨3, _⟩ => ⟨S3200000, .i32⟩
  | .hbm, ⟨4, _⟩ => ⟨S3200000, .i32⟩
  | .hbm, ⟨5, _⟩ => ⟨S32x5, .f32⟩
  | .hbm, ⟨6, _⟩ => ⟨S5, .f32⟩
  | .hbm, ⟨7, _⟩ => ⟨S32x5, .f32⟩
  | .hbm, ⟨8, _⟩ => ⟨S5, .f32⟩
  | .hbm, ⟨9, _⟩ => ⟨S32x5, .f32⟩
  | .hbm, ⟨10, _⟩ => ⟨S5, .f32⟩
  | .hbm, ⟨11, _⟩ => ⟨S20x5, .f32⟩
  | .hbm, ⟨12, _⟩ => ⟨S5, .f32⟩
  | .hbm, ⟨13, _⟩ => ⟨S5x5, .f32⟩
  | .hbm, ⟨14, _⟩ => ⟨S5, .f32⟩
  | .hbm, ⟨15, _⟩ => ⟨S20x5, .f32⟩
  | .hbm, ⟨16, _⟩ => ⟨S5, .f32⟩
  | .hbm, ⟨17, _⟩ => ⟨S5x5, .f32⟩
  | .hbm, ⟨18, _⟩ => ⟨S5, .f32⟩
  | .hbm, ⟨19, _⟩ => ⟨S3200000x5, .f32⟩
  | .hbm, ⟨20, _⟩ => ⟨S1x5, .f32⟩
  | .hbm, ⟨21, _⟩ => ⟨S3200000x5, .f32⟩
  | .hbm, ⟨22, _⟩ => ⟨S3200000x5, .f32⟩
  | .hbm, ⟨23, _⟩ => ⟨S100000x5, .f32⟩
  | .hbm, ⟨24, _⟩ => ⟨S1x5, .f32⟩
  | .hbm, ⟨25, _⟩ => ⟨S100000x5, .f32⟩
  | .hbm, ⟨26, _⟩ => ⟨S100000x5, .f32⟩
  | .hbm, ⟨27, _⟩ => ⟨S1x5, .f32⟩
  | .hbm, ⟨28, _⟩ => ⟨S1x5, .f32⟩
  | .hbm, ⟨29, _⟩ => ⟨S1x5, .f32⟩
  | .hbm, ⟨30, _⟩ => ⟨S3200000x5, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x5, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x5, .f32⟩
  | .hbm, ⟨49, _⟩ => ⟨S3200000x20, .f32⟩
  | .hbm, ⟨50, _⟩ => ⟨S3200000x5, .f32⟩
  | .hbm, ⟨51, _⟩ => ⟨S1x5, .f32⟩
  | .hbm, ⟨52, _⟩ => ⟨S3200000x5, .f32⟩
  | .hbm, ⟨53, _⟩ => ⟨S3200000x5, .f32⟩
  | .hbm, ⟨54, _⟩ => ⟨S_, .f32⟩
  | .hbm, ⟨55, _⟩ => ⟨S3200000x5, .f32⟩
  | .hbm, ⟨56, _⟩ => ⟨S3200000x5, .f32⟩
  | .hbm, ⟨57, _⟩ => ⟨S3200000x5, .f32⟩
  | .hbm, ⟨58, _⟩ => ⟨S1x5, .f32⟩
  | .hbm, ⟨59, _⟩ => ⟨S3200000x5, .f32⟩
  | .hbm, ⟨60, _⟩ => ⟨S3200000x5, .f32⟩
  | .hbm, ⟨61, _⟩ => ⟨S_, .f32⟩
  | .hbm, ⟨62, _⟩ => ⟨S3200000x5, .f32⟩
  | .hbm, ⟨63, _⟩ => ⟨S3200000x5, .f32⟩
  | .hbm, ⟨64, _⟩ => ⟨S_, .f32⟩
  | .hbm, ⟨65, _⟩ => ⟨S100000x5, .f32⟩
  | .hbm, ⟨66, _⟩ => ⟨S3200000x1, .i32⟩
  | .hbm, ⟨67, _⟩ => ⟨S100000x5, .f32⟩
  | .hbm, ⟨68, _⟩ => ⟨S_, .f32⟩
  | .hbm, ⟨69, _⟩ => ⟨S100000x5, .f32⟩
  | .hbm, ⟨70, _⟩ => ⟨S3200000x1, .i32⟩
  | .hbm, ⟨71, _⟩ => ⟨S100000x5, .f32⟩
  | .hbm, ⟨72, _⟩ => ⟨S100000x5, .f32⟩
  | .hbm, ⟨73, _⟩ => ⟨S100000x20, .f32⟩
  | .hbm, ⟨74, _⟩ => ⟨S100000x5, .f32⟩
  | .hbm, ⟨75, _⟩ => ⟨S1x5, .f32⟩
  | .hbm, ⟨76, _⟩ => ⟨S100000x5, .f32⟩
  | .hbm, ⟨77, _⟩ => ⟨S100000x5, .f32⟩
  | .hbm, ⟨78, _⟩ => ⟨S_, .f32⟩
  | .hbm, ⟨79, _⟩ => ⟨S100000x5, .f32⟩
  | .hbm, ⟨80, _⟩ => ⟨S100000x5, .f32⟩
  | .hbm, ⟨81, _⟩ => ⟨S100000x5, .f32⟩
  | .hbm, ⟨82, _⟩ => ⟨S1x5, .f32⟩
  | .hbm, ⟨83, _⟩ => ⟨S100000x5, .f32⟩
  | .hbm, ⟨84, _⟩ => ⟨S100000x5, .f32⟩
  | .hbm, ⟨85, _⟩ => ⟨S_, .f32⟩
  | .hbm, ⟨86, _⟩ => ⟨S100000x5, .f32⟩
  | .hbm, ⟨87, _⟩ => ⟨S100000x5, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call0_cst : Ref sig .tc := ⟨.hbm, 54, rfl⟩
abbrev main_call0_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_cst : Ref sig .tc := ⟨.hbm, 61, rfl⟩
abbrev main_call1_v0 : Ref sig .tc := ⟨.hbm, 62, rfl⟩
abbrev main_v36 : Ref sig .tc := ⟨.hbm, 63, rfl⟩
abbrev main_cst : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call2_cst : Ref sig .tc := ⟨.hbm, 78, rfl⟩
abbrev main_call2_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call3_cst : Ref sig .tc := ⟨.hbm, 85, rfl⟩
abbrev main_call3_v0 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S3200000x5_0_1 : S1x5.BroadcastsInDim S3200000x5 (![0, 1] : Fin 2 → Fin S3200000x5.rank)
  bcast_S1x5_S100000x5_0_1 : S1x5.BroadcastsInDim S100000x5 (![0, 1] : Fin 2 → Fin S100000x5.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x5_S3200000x5_S3200000x5_S3200000x5_S3200000x20_d1 : Shape.Concatenates [S3200000x5, S3200000x5, S3200000x5, S3200000x5] S3200000x20 1
  bcast_S_S3200000x5 : S_.BroadcastsInDim S3200000x5 (![] : Fin 0 → Fin S3200000x5.rank)
  bcast_S_S100000x5 : S_.BroadcastsInDim S100000x5 (![] : Fin 0 → Fin S100000x5.rank)
  concatenates_S100000x5_S100000x5_S100000x5_S100000x5_S100000x20_d1 : Shape.Concatenates [S100000x5, S100000x5, S100000x5, S100000x5] S100000x20 1
  dot_S3200000x32_S32x5_S3200000x5_1_0_0_1_n_n_wf : DotDims.WF S3200000x32 S32x5 S3200000x5 [1] [0] [0] [1] [] []
  dot_S100000x32_S32x5_S100000x5_1_0_0_1_n_n_wf : DotDims.WF S100000x32 S32x5 S100000x5 [1] [0] [0] [1] [] []
  dot_S1x32_S32x5_S1x5_1_0_0_1_n_n_wf : DotDims.WF S1x32 S32x5 S1x5 [1] [0] [0] [1] [] []
  gather_S100000x5_S3200000x1_S3200000x5_1_0_n_n_0_1_15_wf : GatherDims.WF S100000x5 S3200000x1 S3200000x5 [1] [0] [] [0] [] 1 ![1, 5]
  dot_S3200000x20_S20x5_S3200000x5_1_0_0_1_n_n_wf : DotDims.WF S3200000x20 S20x5 S3200000x5 [1] [0] [0] [1] [] []
  dot_S3200000x5_S5x5_S3200000x5_1_0_0_1_n_n_wf : DotDims.WF S3200000x5 S5x5 S3200000x5 [1] [0] [0] [1] [] []
  scatter_S100000x5_S3200000x1_S3200000x5_1_0_0_1_wf : ScatterDims.WF S100000x5 S3200000x1 S3200000x5 [1] [0] [0] 1
  dot_S100000x20_S20x5_S100000x5_1_0_0_1_n_n_wf : DotDims.WF S100000x20 S20x5 S100000x5 [1] [0] [0] [1] [] []
  dot_S100000x5_S5x5_S100000x5_1_0_0_1_n_n_wf : DotDims.WF S100000x5 S5x5 S100000x5 [1] [0] [0] [1] [] []

variable [Facts₀]

def dot_S3200000x32_S32x5_S3200000x5_1_0_0_1_n_n : DotDims S3200000x32 S32x5 S3200000x5 where
  lhsContracting := [1]
  rhsContracting := [0]
  lhsNonContracting := [0]
  rhsNonContracting := [1]
  lhsBatch := []
  rhsBatch := []
  wf := dot_S3200000x32_S32x5_S3200000x5_1_0_0_1_n_n_wf
def dot_S100000x32_S32x5_S100000x5_1_0_0_1_n_n : DotDims S100000x32 S32x5 S100000x5 where
  lhsContracting := [1]
  rhsContracting := [0]
  lhsNonContracting := [0]
  rhsNonContracting := [1]
  lhsBatch := []
  rhsBatch := []
  wf := dot_S100000x32_S32x5_S100000x5_1_0_0_1_n_n_wf
def dot_S1x32_S32x5_S1x5_1_0_0_1_n_n : DotDims S1x32 S32x5 S1x5 where
  lhsContracting := [1]
  rhsContracting := [0]
  lhsNonContracting := [0]
  rhsNonContracting := [1]
  lhsBatch := []
  rhsBatch := []
  wf := dot_S1x32_S32x5_S1x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S3200000x20_S20x5_S3200000x5_1_0_0_1_n_n : DotDims S3200000x20 S20x5 S3200000x5 where
  lhsContracting := [1]
  rhsContracting := [0]
  lhsNonContracting := [0]
  rhsNonContracting := [1]
  lhsBatch := []
  rhsBatch := []
  wf := dot_S3200000x20_S20x5_S3200000x5_1_0_0_1_n_n_wf
def dot_S3200000x5_S5x5_S3200000x5_1_0_0_1_n_n : DotDims S3200000x5 S5x5 S3200000x5 where
  lhsContracting := [1]
  rhsContracting := [0]
  lhsNonContracting := [0]
  rhsNonContracting := [1]
  lhsBatch := []
  rhsBatch := []
  wf := dot_S3200000x5_S5x5_S3200000x5_1_0_0_1_n_n_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S100000x20_S20x5_S100000x5_1_0_0_1_n_n : DotDims S100000x20 S20x5 S100000x5 where
  lhsContracting := [1]
  rhsContracting := [0]
  lhsNonContracting := [0]
  rhsNonContracting := [1]
  lhsBatch := []
  rhsBatch := []
  wf := dot_S100000x20_S20x5_S100000x5_1_0_0_1_n_n_wf
def dot_S100000x5_S5x5_S100000x5_1_0_0_1_n_n : DotDims S100000x5 S5x5 S100000x5 where
  lhsContracting := [1]
  rhsContracting := [0]
  lhsNonContracting := [0]
  rhsNonContracting := [1]
  lhsBatch := []
  rhsBatch := []
  wf := dot_S100000x5_S5x5_S100000x5_1_0_0_1_n_n_wf

class Facts : Prop extends Facts₀ where

variable [Facts]
-- ==== Proof.ResultRun.lean ====
/-
  The idealized kernel's run, with its result array named.

  @main is three launched regions among three stretches of host operations. The buffer contents at each boundary are a
  fold from the launch memory: a stretch applies its operations, a region leaves each of its arrays at what its
  write-backs fold to and every other buffer as it found it. Every weakly fair execution terminates, without a
  fault, with every unscoped buffer at the last boundary's contents; read at the result buffer and at the nineteen
  argument buffers, that is: the result is the last boundary's contents there, and the arguments end as launched.
-/
import proofs.«123845_j19026705121528_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last region leaves there and every argument buffer as launched. -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.ResultRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«123845_j19026705121528_1_alg».proof.Proof.LibPlainMatmul
import proofs.«123845_j19026705121528_1_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibDenseRows.lean ====
/-
  A dense layer on a block of rows, on the extended reals.

  For an m×k matrix X, a k×n matrix W and a one-row matrix r the function `denseRows X W r` reads, at (a, b),
  Σ_c X(a, c) · W(c, b) + r(0, b). It is computed three ways:
  * a block's product into the zero accumulator plus the row repeated down the block (`block_dense`);
  * the host's product plus its two broadcasts of a length-n vector v, r being that vector laid out as a row
    (`host_dense`);
  * with X first clamped below at zero, which is done entry by entry and so commutes with reading a block
    (`clamp0`, `host_clamp0`, `block_clamp0`).
  A narrowing or a widening change of float format is the identity on the extended reals, so neither shows.
-/
import Idealize.ShloMosaic.PureOps.Ideal.Laws
import Idealize.ShloMosaic.Lib.ValueIdx
import Idealize.ShloMosaic.Lib.ValueLayout
import Idealize.ShloMosaic.Lib.Pipeline.Value
import proofs.«123845_j19026705121528_1_alg».proof.Proof.LibDenseLayer

noncomputable section

open scoped BigOperators

namespace Cert.DenseRows

open Idealize.ShloMosaic Idealize.ShloMosaic.ValueIdx

/-- Row a of X against column b of W, plus the row matrix r at column b. -/
def denseRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  fun i => (∑ c : Fin k, X (ix2 (i 0) c) * W (ix2 c (i 1))) + r (ix2 (0 : Fin 1) (i 1))

theorem denseRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    denseRows X W r (ix2 a b) = (∑ c : Fin k, X (ix2 a c) * W (ix2 c b)) + r (ix2 (0 : Fin 1) b) := rfl

/-- A block's plain product into the zero accumulator, plus the one-row matrix repeated down the block, then narrowed:
    the dense layer of the block's rows. -/
theorem block_dense {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (ht : FTy.bf16.bits < FTy.f32.bits) :
    (truncf .bf16 (addf (matmul (DotDims.plain m k n) none x0 x1 (constant ⟨2, ![m, n]⟩ .f32 0x00000000#32))
        (broadcastTo ⟨2, ![m, n]⟩ (shapeCast ⟨2, ![1, n]⟩ x2 h1) h2)) ht : FVec Ideal ⟨2, ![m, n]⟩ .bf16)
      = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ (shapeCast ⟨2, ![1, n]⟩ x2 h1) h2 (ix2 a b) = _
  rw [matmul_plain_zero_apply, broadcastTo_1b_ab_apply, shapeCast_self, denseRows_apply]

/-- The host's plain product plus its two broadcasts of a length-n vector: the dense layer with that vector as the row. -/
theorem host_dense {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (Host.dotGeneral (DotDims.plain m k n) none A B)
        (broadcastInDim ⟨2, ![m, n]⟩ ![0, 1] g2 (broadcastInDim ⟨2, ![1, n]⟩ ![1] g1 v))
      = denseRows A B (shapeCast ⟨2, ![1, n]⟩ v h) := by
  funext i
  obtain ⟨a, b, rfl⟩ : ∃ (a : Fin m) (b : Fin n), i = ix2 a b := ⟨i 0, i 1, eq_ix2 i⟩
  rw [Cert.LibDenseLayer.dense_apply, denseRows_apply, shapeCast_a_1a_apply]

/-- An array clamped below at zero, entry by entry (zero kept as the all-zero f32 word). -/
def clamp0 {s : Shape} (X : s.Idx → EReal) : s.Idx → EReal :=
  fun i => max (X i) (Ideal.ofBits .f32 0x00000000#32)

/-- The host's maximum with the broadcast zero constant is that clamp. -/
theorem host_clamp0 {s : Shape} (X : FVec Ideal s .f32) (g : (⟨0, ![]⟩ : Shape).BroadcastsInDim s ![]) :
    maximumf X (broadcastInDim s ![] g (constant (F := Ideal) ⟨0, ![]⟩ .f32 0x00000000#32)) = clamp0 X := by
  funext i
  rfl

/-- A block's maximum with the splat of zero, after a cast to its own shape and before narrowing, is that clamp. -/
theorem block_clamp0 {s : Shape} (x : FVec Ideal s .f32) (h : s.ShapeCasts s) (ht : FTy.bf16.bits < FTy.f32.bits) :
    (truncf .bf16 (maximumf (shapeCast s x h) (broadcast s (Scalar.ofBits .f32 0x00000000#32 : Ideal .f32))) ht
        : FVec Ideal s .bf16) = clamp0 x := by
  rw [shapeCast_self]
  funext i
  rfl

/-- Clamping commutes with reading a sub-array: it is done entry by entry. -/
theorem clamp0_comp {s t : Shape} (X : s.Idx → EReal) (e : t.Idx → s.Idx) : (fun y => clamp0 X (e y)) = clamp0 (fun y => X (e y)) := rfl

end Cert.DenseRows

end
-- ==== Proof.NodeEmbedBlock.lean ====
/-
  The node-embedding kernel's block, as a dense layer.

  At a grid point the body loads a 4000×32 block x of the features, the whole 32×5 weight matrix w and the 1×5
  bias row r, and stores x·w accumulated into zero plus r repeated down the block's rows. The two narrowings to
  bf16 before the product are the identity on the extended reals. So the stored block reads, at (a, b),
  Σ_c x(a, c)·w(c, b) + r(0, b): the dense layer of the block's rows.
-/
import proofs.«123845_j19026705121528_1_alg».proof.Proof.Gen.KernelIdeal.Skeleton
import proofs.«123845_j19026705121528_1_alg».proof.Proof.LibDenseRows

noncomputable section

open scoped BigOperators

namespace Cert.KernelIdeal.NodeEmbedBlock

open Cert.KernelIdeal Cert.KernelIdeal.Gen
open Idealize.ShloMosaic Idealize.ShloMosaic.ValueIdx Cert.DenseRows

/-- What the body stores is the dense layer of the loaded block: its rows against w, plus the bias row. -/
theorem stored_eq (v0 : Vec Ideal S4000x32 .f32) (v2 : Vec Ideal S32x5 .f32) (v5 : Vec Ideal S1x5 .f32) :
    k0_pay1 (F := Ideal) v0 v2 v5 = denseRows v0 v2 v5 := by
  funext i
  obtain ⟨a, b, rfl⟩ : ∃ (a : Fin 4000) (b : Fin 5), i = ix2 a b := ⟨i 0, i 1, eq_ix2 i⟩
  unfold k0_pay1
  show matmul (F := Ideal) (DotDims.plain 4000 32 5) none v0 v2 (constant (F := Ideal) ⟨2, ![4000, 5]⟩ .f32 0x00000000#32) (ix2 a b)
      + broadcastTo ⟨2, ![4000, 5]⟩ (shapeCast ⟨2, ![1, 5]⟩ v5 shapeCasts_S1x5_S1x5) broadcasts_S1x5_S4000x5 (ix2 a b) = _
  rw [matmul_plain_zero_apply, broadcastTo_1b_ab_apply, shapeCast_self, denseRows_apply]

end Cert.KernelIdeal.NodeEmbedBlock

end
-- ==== Proof.NodeEmbedArray.lean ====
/-
  Region 0's result array: the node embeddings as one function of the arrays the region finds.

  The grid has 25 points. At point t the body sees rows 4000·t … 4000·t + 3999 of the 100000×32 feature array, the
  whole 32×5 weight matrix and the whole 1×5 bias row, and writes back rows 4000·t … 4000·t + 3999 of the 100000×5
  result. What it writes is the dense layer of the rows it sees, and a dense layer's row depends on the same row of
  its input only; so the block written at t is block t of

      nodes = denseRows features weights bias     (at (a, b): Σ_c features(a,c)·weights(c,b) + bias(0,b)),

  the dense layer of the whole feature array. The 25 blocks tile the result (row r lies in block r / 4000), so after
  the region the result array is `nodes`, whatever it held before.
-/
import proofs.«123845_j19026705121528_1_alg».proof.Proof.Gen.KernelIdeal.Frame
import proofs.«123845_j19026705121528_1_alg».proof.Proof.NodeEmbedBlock

set_option maxRecDepth 16384

noncomputable section

open scoped BigOperators

namespace Cert.KernelIdeal.NodeEmbedArray

open Cert.KernelIdeal Cert.KernelIdeal.Gen
open Idealize.ShloMosaic Idealize.ShloMosaic.TcCoe Idealize.SL.Sem
open Idealize.ShloMosaic.ValueIdx Cert.DenseRows
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the feature window's block moves with the result's, the weight and
    bias windows stay at block (0, 0), and the result's block index is (t, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- The dense layer of the whole feature array, from the arrays as the region finds them. -/
def nodes (c : Dev nD) : S100000x5.Idx → EReal :=
  denseRows (V c main_arg0 : S100000x32.Idx → EReal) (V c main_arg7 : S32x5.Idx → EReal) (V c main_v0 : S1x5.Idx → EReal)

/-- Row p of a dense layer depends on row p of its input only: where a block x0 holds, row for row, the rows e p
    of X, the layer of the block at (p, q) is the layer of X at (e p, q). -/
theorem denseRows_rows {m M k n : ℕ} (X : (⟨2, ![M, k]⟩ : Shape).Idx → EReal) (W : (⟨2, ![k, n]⟩ : Shape).Idx → EReal)
    (r : (⟨2, ![1, n]⟩ : Shape).Idx → EReal) (e : Fin m → Fin M) (x0 : (⟨2, ![m, k]⟩ : Shape).Idx → EReal)
    (h : ∀ (p : Fin m) (c : Fin k), x0 (ix2 p c) = X (ix2 (e p) c)) (p : Fin m) (q : Fin n) :
    denseRows x0 W r (ix2 p q) = denseRows X W r (ix2 (e p) q) := by
  rw [denseRows_apply, denseRows_apply]
  simp only [h]

/-- What point t writes back is block t of `nodes`. -/
theorem flushed_eq (c : Dev nD) (t : Fin cfg0.N) :
    (dat0 V c).flushed 3 t = ((cfg0.win 3).blk t).view.read (Elt Ideal) (nodes V c) := by
  show (cfg0.win 3).cut (grid0.coords t) ((dat0 V c).after 3 t) = _
  rw [after0_3]
  unfold out0_3
  rw [View.canon_unit_zero hz]
  simp only [View.ld_unit_zero (S := S4000x32) hz, View.ld_unit_zero (S := S32x5) hz, View.ld_unit_zero (S := S1x5) hz]
  rw [NodeEmbedBlock.stored_eq]
  obtain ⟨e0, e1, e2, e3, e4, e5, e6, e7⟩ := idx_facts t
  have ht : t.val < 25 := lt_of_lt_of_eq t.isLt N_0
  -- the weight window's one block is the whole weight matrix, the bias window's the whole bias row
  have hW : iblk0 V c 1 t = V c main_arg7 := by
    funext y
    show V c main_arg7 (((cfg0.win 1).blk t).view.emb y) = V c main_arg7 y
    refine congrArg _ (funext fun a => Fin.ext ?_)
    match a with
    | ⟨0, _⟩ => show win0_1.index t (0 : Fin 2) * 32 + 1 * (y 0).val = (y 0).val; omega
    | ⟨1, _⟩ => show win0_1.index t (1 : Fin 2) * 5 + 1 * (y 1).val = (y 1).val; omega
  have hR : iblk0 V c 2 t = V c main_v0 := by
    funext y
    show V c main_v0 (((cfg0.win 2).blk t).view.emb y) = V c main_v0 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 5 + 1 * (y 1).val = (y 1).val; omega
  -- row p of the feature window's block is row 4000·t + p of the feature array
  have hX : ∀ (p : Fin 4000) (k : Fin 32), iblk0 V c 0 t (ix2 p k)
      = V c main_arg0 (ix2 (⟨t.val * 4000 + p.val, by have := p.isLt; omega⟩ : Fin 100000) k) := fun p k => by
    show V c main_arg0 (((cfg0.win 0).blk t).view.emb (ix2 p k)) = V c main_arg0 (ix2 (⟨t.val * 4000 + p.val, _⟩ : Fin 100000) k)
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 32 + 1 * k.val = k.val; omega
  funext j
  have hj0 : (j 0).val < 4000 := (j 0).isLt
  -- where the result's block sits: row j 0 of the block is row 4000·t + j 0 of the array
  have hJ : ((cfg0.win 3).blk t).view.emb j
      = ix2 (⟨t.val * 4000 + (j 0).val, by omega⟩ : Fin 100000) (j 1) :=
    funext fun a => Fin.ext (by
      match a with
      | ⟨0, _⟩ => show win0_3.index t (0 : Fin 2) * 4000 + 1 * (j 0).val = t.val * 4000 + (j 0).val; omega
      | ⟨1, _⟩ => show win0_3.index t (1 : Fin 2) * 5 + 1 * (j 1).val = (j 1).val; omega)
  show denseRows (iblk0 V c 0 t) (iblk0 V c 1 t) (iblk0 V c 2 t) j = nodes V c (((cfg0.win 3).blk t).view.emb j)
  refine (congrArg (denseRows (iblk0 V c 0 t) (iblk0 V c 1 t) (iblk0 V c 2 t)) (eq_ix2 j)).trans ?_
  rw [hJ, hW, hR]
  exact denseRows_rows (V c main_arg0) (V c main_arg7) (V c main_v0)
    (fun p => (⟨t.val * 4000 + p.val, by have := p.isLt; omega⟩ : Fin 100000)) (iblk0 V c 0 t) hX (j 0) (j 1)

/-- An index of the result is in point t's block iff each coordinate is in the block's range on its axis. -/
theorem mem_blk (t : Fin cfg0.N) (i : S100000x5.Idx) :
    i ∈ ((cfg0.win 3).blk t).view.set ↔ ∀ a : Fin 2, win0_3.index t a * S4000x5.size a ≤ (i a).val ∧ (i a).val < win0_3.index t a * S4000x5.size a + S4000x5.size a := by
  show i ∈ ((View.whole main_v1).slice (win0_3.rect t)).set ↔ _
  rw [View.set_slice_whole, Rect.mem_set_unit]
  exact Iff.rfl

/-- Every index of the result lies in some point's block: row r in block r / 4000. -/
theorem cover (i : S100000x5.Idx) : ∃ t : Fin cfg0.N, (cfg0.win 3).flush t = true ∧ i ∈ ((cfg0.win 3).blk t).view.set := by
  have hi0 : (i 0).val < 100000 := (i 0).isLt
  have hi1 : (i 1).val < 5 := (i 1).isLt
  have ht : (i 0).val / 4000 < cfg0.N := lt_of_lt_of_eq (by omega : (i 0).val / 4000 < 25) N_0.symm
  refine ⟨⟨(i 0).val / 4000, ht⟩, flush0_3 _, ?_⟩
  rw [mem_blk]
  obtain ⟨-, -, -, -, -, -, e6, e7⟩ := idx_facts ⟨(i 0).val / 4000, ht⟩
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e7]; show (i 0).val / 4000 * 4000 ≤ (i 0).val ∧ (i 0).val < (i 0).val / 4000 * 4000 + 4000; omega
  | ⟨1, _⟩ =>
    show win0_3.index ⟨(i 0).val / 4000, ht⟩ (1 : Fin 2) * 5 ≤ (i 1).val ∧ (i 1).val < win0_3.index ⟨(i 0).val / 4000, ht⟩ (1 : Fin 2) * 5 + 5
    rw [e6]; omega

/-- After the region the result array is `nodes` of the arrays the region found. -/
theorem array_eq (c : Dev nD) : (dat0 V c).arrAt 3 cfg0.N = nodes V c :=
  (dat0 V c).arrAt_eq_of_cover 3 (nodes V c) (fun t _ => flushed_eq V c t) (cover)

end Cert.KernelIdeal.NodeEmbedArray

end
-- ==== Proof.LibReluRows.lean ====
/-
  A dense layer clamped below at zero, row by row, on the extended reals.

  For an m×k matrix X, a k×n matrix W and a one-row matrix r the function `reluRows X W r` reads, at (a, b),
  max(Σ_c X(a, c) · W(c, b) + r(0, b), 0): a dense layer (`denseRows`) followed by the clamp at zero (`clamp0`).
  It is computed two ways:
  * on a block of rows held in vector registers: the product into the zero accumulator, plus the one-row matrix
    repeated down the block, then the maximum with the splat of zero (`block_reluRows`);
  * by host operations on the whole array: the plain product, plus the two broadcasts of a length-n vector v (r
    being v laid out as a row), then the maximum with the broadcast zero constant (`host_reluRows`).
  Row a of the result depends on row a of X only, so the result of a block of rows of X is the same block of rows
  of the result of X (`reluRows_rows`).
-/
import Idealize.ShloMosaic.PureOps.Ideal.Laws
import Idealize.ShloMosaic.Lib.ValueIdx
import Idealize.ShloMosaic.Lib.ValueLayout
import Idealize.ShloMosaic.Lib.Pipeline.Value
import proofs.«123845_j19026705121528_1_alg».proof.Proof.LibDenseRows

noncomputable section

open scoped BigOperators

namespace Cert.ReluRows

open Idealize.ShloMosaic Idealize.ShloMosaic.ValueIdx Cert.DenseRows

/-- Row a of X against column b of W, plus the row matrix r at column b, clamped below at zero. -/
def reluRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  clamp0 (denseRows X W r)

theorem reluRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    reluRows X W r (ix2 a b)
      = max ((∑ c : Fin k, X (ix2 a c) * W (ix2 c b)) + r (ix2 (0 : Fin 1) b)) (Ideal.ofBits .f32 0x00000000#32) := rfl

/-- A block's plain product into the zero accumulator (the block first cast to its own shape), plus the one-row matrix
    repeated down the block, then the maximum with the splat of zero: the clamped dense layer of the block's rows. -/
theorem block_reluRows {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h0 : (⟨2, ![m, k]⟩ : Shape).ShapeCasts ⟨2, ![m, k]⟩)
    (h1 : (⟨2, ![1, n]⟩ : Shape).ShapeCasts ⟨2, ![1, n]⟩) (h2 : (⟨2, ![1, n]⟩ : Shape).Broadcasts ⟨2, ![m, n]⟩) :
    maximumf (addf (matmul (DotDims.plain m k n) none (shapeCast ⟨2, ![m, k]⟩ x0 h0) x1 (constant ⟨2, ![m, n]⟩ .f32 0x00000000#32))
        (broadcastTo ⟨2, ![m, n]⟩ (shapeCast ⟨2, ![1, n]⟩ x2 h1) h2))
      (broadcast ⟨2, ![m, n]⟩ (Scalar.ofBits .f32 0x00000000#32 : Ideal .f32))
      = reluRows x0 x1 x2 := by
  have e : addf (matmul (DotDims.plain m k n) none (shapeCast ⟨2, ![m, k]⟩ x0 h0) x1 (constant ⟨2, ![m, n]⟩ .f32 0x00000000#32))
      (broadcastTo ⟨2, ![m, n]⟩ (shapeCast ⟨2, ![1, n]⟩ x2 h1) h2) = denseRows x0 x1 x2 := by
    funext i
    obtain ⟨a, b, rfl⟩ : ∃ (a : Fin m) (b : Fin n), i = ix2 a b := ⟨i 0, i 1, eq_ix2 i⟩
    show matmul (DotDims.plain m k n) none (shapeCast ⟨2, ![m, k]⟩ x0 h0) x1 (constant ⟨2, ![m, n]⟩ .f32 0x00000000#32) (ix2 a b)
        + broadcastTo ⟨2, ![m, n]⟩ (shapeCast ⟨2, ![1, n]⟩ x2 h1) h2 (ix2 a b) = _
    rw [matmul_plain_zero_apply, broadcastTo_1b_ab_apply, shapeCast_self, shapeCast_self, denseRows_apply]
  rw [e]
  funext i
  rfl

/-- The host's plain product plus its two broadcasts of a length-n vector, then the maximum with the broadcast zero
    constant: the clamped dense layer with that vector as the row. -/
theorem host_reluRows {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![])
    (h : (⟨1, ![n]⟩ : Shape).ShapeCasts ⟨2, ![1, n]⟩) :
    maximumf (addf (Host.dotGeneral (DotDims.plain m k n) none A B)
        (broadcastInDim ⟨2, ![m, n]⟩ ![0, 1] g2 (broadcastInDim ⟨2, ![1, n]⟩ ![1] g1 v)))
      (broadcastInDim ⟨2, ![m, n]⟩ ![] g0 (constant (F := Ideal) ⟨0, ![]⟩ .f32 0x00000000#32))
      = reluRows A B (shapeCast ⟨2, ![1, n]⟩ v h) := by
  rw [host_dense A B v g1 g2 h, host_clamp0]
  rfl

/-- Row p of the result depends on row p of X only: where a block x0 holds, row for row, the rows e p of X, the
    result of the block at (p, q) is the result of X at (e p, q). -/
theorem reluRows_rows {m M k n : ℕ} (X : (⟨2, ![M, k]⟩ : Shape).Idx → EReal) (W : (⟨2, ![k, n]⟩ : Shape).Idx → EReal)
    (r : (⟨2, ![1, n]⟩ : Shape).Idx → EReal) (e : Fin m → Fin M) (x0 : (⟨2, ![m, k]⟩ : Shape).Idx → EReal)
    (h : ∀ (p : Fin m) (c : Fin k), x0 (ix2 p c) = X (ix2 (e p) c)) (p : Fin m) (q : Fin n) :
    reluRows x0 W r (ix2 p q) = reluRows X W r (ix2 (e p) q) := by
  rw [reluRows_apply, reluRows_apply]
  simp only [h]

end Cert.ReluRows

end
-- ==== Proof.LibFourBlocks.lean ====
/-
  A finite sum taken in four consecutive blocks of equal length.

  In any commutative additive monoid, a sum over the N = n + n + n + n indices 0, …, N - 1 is the sum of its first
  n terms, plus the next n, plus the next n, plus the last n, grouped from the left. Only the commutative-monoid
  laws are used, so this holds where some terms are infinite, as on the extended reals.
-/
import Mathlib.Algebra.BigOperators.Fin

open scoped BigOperators

namespace Cert.LibFourBlocks

/-- The sum over `Fin N`, N = n + n + n + n, is the four blocks' sums, grouped from the left. -/
theorem sum_four_blocks {M : Type} [AddCommMonoid M] {n N : ℕ} (h : n + n + n + n = N) (f : Fin N → M) :
    ∑ k : Fin N, f k
      = ((∑ c : Fin n, f ⟨c.val, by have := c.isLt; omega⟩
          + ∑ c : Fin n, f ⟨n + c.val, by have := c.isLt; omega⟩)
          + ∑ c : Fin n, f ⟨n + n + c.val, by have := c.isLt; omega⟩)
          + ∑ c : Fin n, f ⟨n + n + n + c.val, by have := c.isLt; omega⟩ := by
  subst h
  rw [Fin.sum_univ_add, Fin.sum_univ_add, Fin.sum_univ_add]
  rfl

end Cert.LibFourBlocks
-- ==== Proof.LibColumnPieces.lean ====
/-
  Arrays laid side by side, read a column at a time; and a block of rows of such a join.

  Rank-two arrays with the same number of rows, joined along their second axis, give an array whose entry at
  (p, j) is the entry at (p, j - pre) of the piece whose span of columns holds j, pre being the number of columns of
  the pieces before it (cols_piece). Row p of the join is made of row p of each piece, and of nothing else:
  so when each of several blocks holds, row for row, the rows e p of its own array, the join of the blocks holds the
  rows e p of the join of the arrays (cols4_rows for four pieces, cols3_rows for three, of any widths).
-/
import Idealize.ShloMosaic.Lib.Pipeline.Value
import Idealize.ShloMosaic.Lib.ValueIdx

namespace Cert.LibColumnPieces

open Idealize.ShloMosaic Idealize.ShloMosaic.ValueIdx

variable {α : Type}

/-- Joined along the second axis: the piece at position k of the list, an [m, n] array with pre columns
    before it, is what the join reads at column pre + q, at its own column q. -/
theorem cols_piece {m N : ℕ} (xs : List ((s : Shape) × (s.Idx → α)))
    (h : Shape.Concatenates (xs.map (·.1)) ⟨2, ![m, N]⟩ (1 : Fin 2))
    (k : ℕ) (hk : k < xs.length) (n : ℕ) (x : (⟨2, ![m, n]⟩ : Shape).Idx → α) (hxk : xs[k] = ⟨⟨2, ![m, n]⟩, x⟩)
    (pre : ℕ)
    (hpre : (((xs.take k).map (·.1)).map fun s => if h : s.rank = (⟨2, ![m, N]⟩ : Shape).rank then s.size ((1 : Fin 2).cast h.symm) else 0).sum = pre)
    (p : Fin m) (q : Fin n) (j : Fin N) (hj : pre + q.val = j.val) :
    concatenate ⟨2, ![m, N]⟩ (1 : Fin 2) xs h (ix2 p j) = x (ix2 p q) :=
  concatenate_apply_piece (t := ⟨2, ![m, N]⟩) (1 : Fin 2) xs h (ix2 p j) k hk ⟨2, ![m, n]⟩ x hxk rfl pre hpre (ix2 p q)
    (fun b hb =>
      match b, hb with
      | ⟨0, _⟩, _ => rfl
      | ⟨1, _⟩, hb => absurd rfl hb)
    hj

/-- Four arrays side by side, and four blocks that hold, row for row, the rows e p of those arrays: the join of
    the blocks holds, row for row, the rows e p of the join of the arrays. -/
theorem cols4_rows {m M n0 n1 n2 n3 N : ℕ}
    (A0 : (⟨2, ![M, n0]⟩ : Shape).Idx → α) (A1 : (⟨2, ![M, n1]⟩ : Shape).Idx → α)
    (A2 : (⟨2, ![M, n2]⟩ : Shape).Idx → α) (A3 : (⟨2, ![M, n3]⟩ : Shape).Idx → α)
    (a0 : (⟨2, ![m, n0]⟩ : Shape).Idx → α) (a1 : (⟨2, ![m, n1]⟩ : Shape).Idx → α)
    (a2 : (⟨2, ![m, n2]⟩ : Shape).Idx → α) (a3 : (⟨2, ![m, n3]⟩ : Shape).Idx → α)
    (H : Shape.Concatenates [(⟨2, ![M, n0]⟩ : Shape), ⟨2, ![M, n1]⟩, ⟨2, ![M, n2]⟩, ⟨2, ![M, n3]⟩] ⟨2, ![M, N]⟩ (1 : Fin 2))
    (h : Shape.Concatenates [(⟨2, ![m, n0]⟩ : Shape), ⟨2, ![m, n1]⟩, ⟨2, ![m, n2]⟩, ⟨2, ![m, n3]⟩] ⟨2, ![m, N]⟩ (1 : Fin 2))
    (e : Fin m → Fin M)
    (h0 : ∀ (p : Fin m) (q : Fin n0), a0 (ix2 p q) = A0 (ix2 (e p) q))
    (h1 : ∀ (p : Fin m) (q : Fin n1), a1 (ix2 p q) = A1 (ix2 (e p) q))
    (h2 : ∀ (p : Fin m) (q : Fin n2), a2 (ix2 p q) = A2 (ix2 (e p) q))
    (h3 : ∀ (p : Fin m) (q : Fin n3), a3 (ix2 p q) = A3 (ix2 (e p) q))
    (p : Fin m) (j : Fin N) :
    concatenate ⟨2, ![m, N]⟩ (1 : Fin 2) [⟨⟨2, ![m, n0]⟩, a0⟩, ⟨⟨2, ![m, n1]⟩, a1⟩, ⟨⟨2, ![m, n2]⟩, a2⟩, ⟨⟨2, ![m, n3]⟩, a3⟩] h (ix2 p j)
      = concatenate ⟨2, ![M, N]⟩ (1 : Fin 2) [⟨⟨2, ![M, n0]⟩, A0⟩, ⟨⟨2, ![M, n1]⟩, A1⟩, ⟨⟨2, ![M, n2]⟩, A2⟩, ⟨⟨2, ![M, n3]⟩, A3⟩] H (ix2 (e p) j) := by
  have hN : n0 + (n1 + (n2 + (n3 + 0))) = N := h.2.2
  have hj := j.isLt
  by_cases c0 : j.val < n0
  · rw [cols_piece [⟨⟨2, ![m, n0]⟩, a0⟩, ⟨⟨2, ![m, n1]⟩, a1⟩, ⟨⟨2, ![m, n2]⟩, a2⟩, ⟨⟨2, ![m, n3]⟩, a3⟩] h 0 (by simp) n0 a0 rfl 0 (by simp) p ⟨j.val, c0⟩ j (by simp),
      cols_piece [⟨⟨2, ![M, n0]⟩, A0⟩, ⟨⟨2, ![M, n1]⟩, A1⟩, ⟨⟨2, ![M, n2]⟩, A2⟩, ⟨⟨2, ![M, n3]⟩, A3⟩] H 0 (by simp) n0 A0 rfl 0 (by simp) (e p) ⟨j.val, c0⟩ j (by simp), h0]
  · by_cases c1 : j.val < n0 + n1
    · rw [cols_piece [⟨⟨2, ![m, n0]⟩, a0⟩, ⟨⟨2, ![m, n1]⟩, a1⟩, ⟨⟨2, ![m, n2]⟩, a2⟩, ⟨⟨2, ![m, n3]⟩, a3⟩] h 1 (by simp) n1 a1 rfl n0 (by simp) p ⟨j.val - n0, by omega⟩ j (by show n0 + (j.val - n0) = j.val; omega),
        cols_piece [⟨⟨2, ![M, n0]⟩, A0⟩, ⟨⟨2, ![M, n1]⟩, A1⟩, ⟨⟨2, ![M, n2]⟩, A2⟩, ⟨⟨2, ![M, n3]⟩, A3⟩] H 1 (by simp) n1 A1 rfl n0 (by simp) (e p) ⟨j.val - n0, by omega⟩ j (by show n0 + (j.val - n0) = j.val; omega), h1]
    · by_cases c2 : j.val < n0 + n1 + n2
      · rw [cols_piece [⟨⟨2, ![m, n0]⟩, a0⟩, ⟨⟨2, ![m, n1]⟩, a1⟩, ⟨⟨2, ![m, n2]⟩, a2⟩, ⟨⟨2, ![m, n3]⟩, a3⟩] h 2 (by simp) n2 a2 rfl (n0 + n1) (by simp) p ⟨j.val - (n0 + n1), by omega⟩ j (by show n0 + n1 + (j.val - (n0 + n1)) = j.val; omega),
          cols_piece [⟨⟨2, ![M, n0]⟩, A0⟩, ⟨⟨2, ![M, n1]⟩, A1⟩, ⟨⟨2, ![M, n2]⟩, A2⟩, ⟨⟨2, ![M, n3]⟩, A3⟩] H 2 (by simp) n2 A2 rfl (n0 + n1) (by simp) (e p) ⟨j.val - (n0 + n1), by omega⟩ j (by show n0 + n1 + (j.val - (n0 + n1)) = j.val; omega), h2]
      · rw [cols_piece [⟨⟨2, ![m, n0]⟩, a0⟩, ⟨⟨2, ![m, n1]⟩, a1⟩, ⟨⟨2, ![m, n2]⟩, a2⟩, ⟨⟨2, ![m, n3]⟩, a3⟩] h 3 (by simp) n3 a3 rfl (n0 + n1 + n2) (by simp [Nat.add_assoc]) p ⟨j.val - (n0 + n1 + n2), by omega⟩ j (by show n0 + n1 + n2 + (j.val - (n0 + n1 + n2)) = j.val; omega),
          cols_piece [⟨⟨2, ![M, n0]⟩, A0⟩, ⟨⟨2, ![M, n1]⟩, A1⟩, ⟨⟨2, ![M, n2]⟩, A2⟩, ⟨⟨2, ![M, n3]⟩, A3⟩] H 3 (by simp) n3 A3 rfl (n0 + n1 + n2) (by simp [Nat.add_assoc]) (e p) ⟨j.val - (n0 + n1 + n2), by omega⟩ j (by show n0 + n1 + n2 + (j.val - (n0 + n1 + n2)) = j.val; omega), h3]

/-- The same for three arrays side by side. -/
theorem cols3_rows {m M n0 n1 n2 N : ℕ}
    (A0 : (⟨2, ![M, n0]⟩ : Shape).Idx → α) (A1 : (⟨2, ![M, n1]⟩ : Shape).Idx → α) (A2 : (⟨2, ![M, n2]⟩ : Shape).Idx → α)
    (a0 : (⟨2, ![m, n0]⟩ : Shape).Idx → α) (a1 : (⟨2, ![m, n1]⟩ : Shape).Idx → α) (a2 : (⟨2, ![m, n2]⟩ : Shape).Idx → α)
    (H : Shape.Concatenates [(⟨2, ![M, n0]⟩ : Shape), ⟨2, ![M, n1]⟩, ⟨2, ![M, n2]⟩] ⟨2, ![M, N]⟩ (1 : Fin 2))
    (h : Shape.Concatenates [(⟨2, ![m, n0]⟩ : Shape), ⟨2, ![m, n1]⟩, ⟨2, ![m, n2]⟩] ⟨2, ![m, N]⟩ (1 : Fin 2))
    (e : Fin m → Fin M)
    (h0 : ∀ (p : Fin m) (q : Fin n0), a0 (ix2 p q) = A0 (ix2 (e p) q))
    (h1 : ∀ (p : Fin m) (q : Fin n1), a1 (ix2 p q) = A1 (ix2 (e p) q))
    (h2 : ∀ (p : Fin m) (q : Fin n2), a2 (ix2 p q) = A2 (ix2 (e p) q))
    (p : Fin m) (j : Fin N) :
    concatenate ⟨2, ![m, N]⟩ (1 : Fin 2) [⟨⟨2, ![m, n0]⟩, a0⟩, ⟨⟨2, ![m, n1]⟩, a1⟩, ⟨⟨2, ![m, n2]⟩, a2⟩] h (ix2 p j)
      = concatenate ⟨2, ![M, N]⟩ (1 : Fin 2) [⟨⟨2, ![M, n0]⟩, A0⟩, ⟨⟨2, ![M, n1]⟩, A1⟩, ⟨⟨2, ![M, n2]⟩, A2⟩] H (ix2 (e p) j) := by
  have hN : n0 + (n1 + (n2 + 0)) = N := h.2.2
  have hj := j.isLt
  by_cases c0 : j.val < n0
  · rw [cols_piece [⟨⟨2, ![m, n0]⟩, a0⟩, ⟨⟨2, ![m, n1]⟩, a1⟩, ⟨⟨2, ![m, n2]⟩, a2⟩] h 0 (by simp) n0 a0 rfl 0 (by simp) p ⟨j.val, c0⟩ j (by simp),
      cols_piece [⟨⟨2, ![M, n0]⟩, A0⟩, ⟨⟨2, ![M, n1]⟩, A1⟩, ⟨⟨2, ![M, n2]⟩, A2⟩] H 0 (by simp) n0 A0 rfl 0 (by simp) (e p) ⟨j.val, c0⟩ j (by simp), h0]
  · by_cases c1 : j.val < n0 + n1
    · rw [cols_piece [⟨⟨2, ![m, n0]⟩, a0⟩, ⟨⟨2, ![m, n1]⟩, a1⟩, ⟨⟨2, ![m, n2]⟩, a2⟩] h 1 (by simp) n1 a1 rfl n0 (by simp) p ⟨j.val - n0, by omega⟩ j (by show n0 + (j.val - n0) = j.val; omega),
        cols_piece [⟨⟨2, ![M, n0]⟩, A0⟩, ⟨⟨2, ![M, n1]⟩, A1⟩, ⟨⟨2, ![M, n2]⟩, A2⟩] H 1 (by simp) n1 A1 rfl n0 (by simp) (e p) ⟨j.val - n0, by omega⟩ j (by show n0 + (j.val - n0) = j.val; omega), h1]
    · rw [cols_piece [⟨⟨2, ![m, n0]⟩, a0⟩, ⟨⟨2, ![m, n1]⟩, a1⟩, ⟨⟨2, ![m, n2]⟩, a2⟩] h 2 (by simp) n2 a2 rfl (n0 + n1) (by simp) p ⟨j.val - (n0 + n1), by omega⟩ j (by show n0 + n1 + (j.val - (n0 + n1)) = j.val; omega),
        cols_piece [⟨⟨2, ![M, n0]⟩, A0⟩, ⟨⟨2, ![M, n1]⟩, A1⟩, ⟨⟨2, ![M, n2]⟩, A2⟩] H 2 (by simp) n2 A2 rfl (n0 + n1) (by simp) (e p) ⟨j.val - (n0 + n1), by omega⟩ j (by show n0 + n1 + (j.val - (n0 + n1)) = j.val; omega), h2]

end Cert.LibColumnPieces
-- ==== Proof.MixedLayer.lean ====
/-
  A layer that mixes four inputs through the four row-blocks of one weight matrix.

  For three M×n matrices A, B, C, a one-row matrix g (1×n), a weight matrix W with N = n + n + n + n rows and a
  one-row bias b, `mix4` reads at (a, q)

      (((Σ_c A(a,c)·W(c,q) + Σ_c B(a,c)·W(n+c,q)) + Σ_c C(a,c)·W(n+n+c,q)) + Σ_c g(0,c)·W(n+n+n+c,q)) + b(0,q),

  the four partial products added from the left and the bias last. Row a of the result depends on row a of A, B
  and C only (`mix4_rows`).

  The same number is reached by laying A, B, C and g repeated down the M rows side by side into one M×N matrix and
  contracting that against W once (`joined_contraction`): a sum over the N joined columns is the sum of its four
  blocks of n, and in block number i the joined matrix reads its i-th piece. Only the commutative-monoid laws of
  addition are used, so the identity holds on the extended reals whatever the entries, infinite ones included.
-/
import Idealize.ShloMosaic.PureOps.Ideal.Laws
import Idealize.ShloMosaic.Lib.ValueIdx
import Idealize.ShloMosaic.Lib.ValueLayout
import Idealize.ShloMosaic.Lib.Pipeline.Value
import proofs.«123845_j19026705121528_1_alg».proof.Proof.LibFourBlocks
import proofs.«123845_j19026705121528_1_alg».proof.Proof.LibColumnPieces

noncomputable section

open scoped BigOperators

namespace Cert.MixedLayer

open Idealize.ShloMosaic Idealize.ShloMosaic.ValueIdx

variable {M n N k : ℕ}

/-- Row a of A, B, C against the first, second and third row-block of W, g's one row against the fourth, summed
    from the left, plus the bias row. -/
def mix4 (hN : n + n + n + n = N)
    (A B C : (⟨2, ![M, n]⟩ : Shape).Idx → EReal) (g : (⟨2, ![1, n]⟩ : Shape).Idx → EReal)
    (W : (⟨2, ![N, k]⟩ : Shape).Idx → EReal) (b : (⟨2, ![1, k]⟩ : Shape).Idx → EReal) :
    (⟨2, ![M, k]⟩ : Shape).Idx → EReal :=
  fun i =>
    ((((∑ c : Fin n, A (ix2 (i 0) c) * W (ix2 (⟨c.val, by have := c.isLt; omega⟩ : Fin N) (i 1)))
        + ∑ c : Fin n, B (ix2 (i 0) c) * W (ix2 (⟨n + c.val, by have := c.isLt; omega⟩ : Fin N) (i 1)))
        + ∑ c : Fin n, C (ix2 (i 0) c) * W (ix2 (⟨n + n + c.val, by have := c.isLt; omega⟩ : Fin N) (i 1)))
        + ∑ c : Fin n, g (ix2 (0 : Fin 1) c) * W (ix2 (⟨n + n + n + c.val, by have := c.isLt; omega⟩ : Fin N) (i 1)))
      + b (ix2 (0 : Fin 1) (i 1))

theorem mix4_apply (hN : n + n + n + n = N)
    (A B C : (⟨2, ![M, n]⟩ : Shape).Idx → EReal) (g : (⟨2, ![1, n]⟩ : Shape).Idx → EReal)
    (W : (⟨2, ![N, k]⟩ : Shape).Idx → EReal) (b : (⟨2, ![1, k]⟩ : Shape).Idx → EReal) (a : Fin M) (q : Fin k) :
    mix4 hN A B C g W b (ix2 a q)
      = ((((∑ c : Fin n, A (ix2 a c) * W (ix2 (⟨c.val, by have := c.isLt; omega⟩ : Fin N) q))
          + ∑ c : Fin n, B (ix2 a c) * W (ix2 (⟨n + c.val, by have := c.isLt; omega⟩ : Fin N) q))
          + ∑ c : Fin n, C (ix2 a c) * W (ix2 (⟨n + n + c.val, by have := c.isLt; omega⟩ : Fin N) q))
          + ∑ c : Fin n, g (ix2 (0 : Fin 1) c) * W (ix2 (⟨n + n + n + c.val, by have := c.isLt; omega⟩ : Fin N) q))
        + b (ix2 (0 : Fin 1) q) := rfl

/-- Row p of the result depends on row p of A, B, C only: where blocks a0, b0, c0 hold, row for row, the rows e p
    of A, B, C, the result of the blocks at (p, q) is the result of the arrays at (e p, q). -/
theorem mix4_rows {m : ℕ} (hN : n + n + n + n = N)
    (A B C : (⟨2, ![M, n]⟩ : Shape).Idx → EReal) (a0 b0 c0 : (⟨2, ![m, n]⟩ : Shape).Idx → EReal)
    (g : (⟨2, ![1, n]⟩ : Shape).Idx → EReal) (W : (⟨2, ![N, k]⟩ : Shape).Idx → EReal)
    (b : (⟨2, ![1, k]⟩ : Shape).Idx → EReal) (e : Fin m → Fin M)
    (hA : ∀ (p : Fin m) (c : Fin n), a0 (ix2 p c) = A (ix2 (e p) c))
    (hB : ∀ (p : Fin m) (c : Fin n), b0 (ix2 p c) = B (ix2 (e p) c))
    (hC : ∀ (p : Fin m) (c : Fin n), c0 (ix2 p c) = C (ix2 (e p) c)) (p : Fin m) (q : Fin k) :
    mix4 hN a0 b0 c0 g W b (ix2 p q) = mix4 hN A B C g W b (ix2 (e p) q) := by
  rw [mix4_apply, mix4_apply]
  simp only [hA, hB, hC]

/-- One contraction of the four pieces laid side by side is the four contractions added from the left: the joined
    matrix's column j in block i is piece i's column j minus the columns before it, and a sum over the N = 4n
    joined columns is the sum of its four blocks. `G` is g repeated down the rows. -/
theorem joined_contraction (hN : n + n + n + n = N)
    (A B C G : (⟨2, ![M, n]⟩ : Shape).Idx → EReal) (g : (⟨2, ![1, n]⟩ : Shape).Idx → EReal)
    (hG : ∀ (a : Fin M) (c : Fin n), G (ix2 a c) = g (ix2 (0 : Fin 1) c))
    (W : (⟨2, ![N, k]⟩ : Shape).Idx → EReal)
    (H : Shape.Concatenates [(⟨2, ![M, n]⟩ : Shape), ⟨2, ![M, n]⟩, ⟨2, ![M, n]⟩, ⟨2, ![M, n]⟩] ⟨2, ![M, N]⟩ (1 : Fin 2))
    (a : Fin M) (q : Fin k) :
    (∑ j : Fin N, concatenate ⟨2, ![M, N]⟩ (1 : Fin 2)
          [⟨⟨2, ![M, n]⟩, A⟩, ⟨⟨2, ![M, n]⟩, B⟩, ⟨⟨2, ![M, n]⟩, C⟩, ⟨⟨2, ![M, n]⟩, G⟩] H (ix2 a j) * W (ix2 j q))
      = (((∑ c : Fin n, A (ix2 a c) * W (ix2 (⟨c.val, by have := c.isLt; omega⟩ : Fin N) q))
          + ∑ c : Fin n, B (ix2 a c) * W (ix2 (⟨n + c.val, by have := c.isLt; omega⟩ : Fin N) q))
          + ∑ c : Fin n, C (ix2 a c) * W (ix2 (⟨n + n + c.val, by have := c.isLt; omega⟩ : Fin N) q))
          + ∑ c : Fin n, g (ix2 (0 : Fin 1) c) * W (ix2 (⟨n + n + n + c.val, by have := c.isLt; omega⟩ : Fin N) q) := by
  rw [Cert.LibFourBlocks.sum_four_blocks hN]
  have e0 : ∀ c : Fin n, concatenate ⟨2, ![M, N]⟩ (1 : Fin 2)
      [⟨⟨2, ![M, n]⟩, A⟩, ⟨⟨2, ![M, n]⟩, B⟩, ⟨⟨2, ![M, n]⟩, C⟩, ⟨⟨2, ![M, n]⟩, G⟩] H
        (ix2 a (⟨c.val, by have := c.isLt; omega⟩ : Fin N)) = A (ix2 a c) := fun c =>
    Cert.LibColumnPieces.cols_piece [⟨⟨2, ![M, n]⟩, A⟩, ⟨⟨2, ![M, n]⟩, B⟩, ⟨⟨2, ![M, n]⟩, C⟩, ⟨⟨2, ![M, n]⟩, G⟩] H 0 (by simp) n A rfl 0 (by simp) a c _ (by simp)
  have e1 : ∀ c : Fin n, concatenate ⟨2, ![M, N]⟩ (1 : Fin 2)
      [⟨⟨2, ![M, n]⟩, A⟩, ⟨⟨2, ![M, n]⟩, B⟩, ⟨⟨2, ![M, n]⟩, C⟩, ⟨⟨2, ![M, n]⟩, G⟩] H
        (ix2 a (⟨n + c.val, by have := c.isLt; omega⟩ : Fin N)) = B (ix2 a c) := fun c =>
    Cert.LibColumnPieces.cols_piece [⟨⟨2, ![M, n]⟩, A⟩, ⟨⟨2, ![M, n]⟩, B⟩, ⟨⟨2, ![M, n]⟩, C⟩, ⟨⟨2, ![M, n]⟩, G⟩] H 1 (by simp) n B rfl n (by simp) a c _ rfl
  have e2 : ∀ c : Fin n, concatenate ⟨2, ![M, N]⟩ (1 : Fin 2)
      [⟨⟨2, ![M, n]⟩, A⟩, ⟨⟨2, ![M, n]⟩, B⟩, ⟨⟨2, ![M, n]⟩, C⟩, ⟨⟨2, ![M, n]⟩, G⟩] H
        (ix2 a (⟨n + n + c.val, by have := c.isLt; omega⟩ : Fin N)) = C (ix2 a c) := fun c =>
    Cert.LibColumnPieces.cols_piece [⟨⟨2, ![M, n]⟩, A⟩, ⟨⟨2, ![M, n]⟩, B⟩, ⟨⟨2, ![M, n]⟩, C⟩, ⟨⟨2, ![M, n]⟩, G⟩] H 2 (by simp) n C rfl (n + n) (by simp) a c _ rfl
  have e3 : ∀ c : Fin n, concatenate ⟨2, ![M, N]⟩ (1 : Fin 2)
      [⟨⟨2, ![M, n]⟩, A⟩, ⟨⟨2, ![M, n]⟩, B⟩, ⟨⟨2, ![M, n]⟩, C⟩, ⟨⟨2, ![M, n]⟩, G⟩] H
        (ix2 a (⟨n + n + n + c.val, by have := c.isLt; omega⟩ : Fin N)) = G (ix2 a c) := fun c =>
    Cert.LibColumnPieces.cols_piece [⟨⟨2, ![M, n]⟩, A⟩, ⟨⟨2, ![M, n]⟩, B⟩, ⟨⟨2, ![M, n]⟩, C⟩, ⟨⟨2, ![M, n]⟩, G⟩] H 3 (by simp) n G rfl (n + n + n) (by simp [Nat.add_assoc]) a c _ rfl
  simp only [e0, e1, e2, e3, hG]

end Cert.MixedLayer

end
-- ==== Proof.LayerBlocks.lean ====
/-
  Two layers computed on a block of rows held in registers, on the extended reals.

  First layer. A 20×5 weight matrix W is cut into its four 5×5 row-blocks (rows 0–4, 5–9, 10–14, 15–19). Three
  m×5 blocks xe, xs, xr are multiplied by the first three, a single row g by the fourth; the three products are
  added from the left, then the row product repeated down the m rows, then a bias row repeated down the rows. At
  (a, q) that is

      (((Σ_c xe(a,c)·W(c,q) + Σ_c xs(a,c)·W(5+c,q)) + Σ_c xr(a,c)·W(10+c,q)) + Σ_c g(0,c)·W(15+c,q)) + b(0,q),

  the function `mix4` (`mixed_eq`). A row-block of W read at (c, q) is W at (offset + c, q) (`rows_*`).

  Second layer. An m×5 block P clamped below at zero, multiplied by a 5×5 matrix, plus a bias row repeated down the
  rows, clamped below at zero again, reads at (a, q) max(Σ_c max(P(a,c), 0)·V(c,q) + r(0,q), 0): the clamped
  dense layer of the clamped block (`clamped_dense_eq`).

  A block's product with a k×5 matrix plus a bias row is the dense layer of its rows (`dense_eq`).

  Every product is accumulated into the zero matrix, and a change of float format is the identity here.
-/
import Idealize.ShloMosaic.PureOps.Ideal.Laws
import Idealize.ShloMosaic.Lib.ValueIdx
import Idealize.ShloMosaic.Lib.ValueLayout
import Idealize.ShloMosaic.Lib.Pipeline.Value
import proofs.«123845_j19026705121528_1_alg».proof.Proof.LibReluRows
import proofs.«123845_j19026705121528_1_alg».proof.Proof.MixedLayer

noncomputable section

open scoped BigOperators

namespace Cert.LayerBlocks

open Idealize.ShloMosaic Idealize.ShloMosaic.ValueIdx Cert.DenseRows Cert.ReluRows Cert.MixedLayer

variable {α : Type}

/-- Rows 0–4 of a 20-row matrix, read at (c, q). -/
theorem rows_0 (W : (⟨2, ![20, 5]⟩ : Shape).Idx → α) (h : (⟨2, ![20, 5]⟩ : Shape).Slices ![0, 0] ⟨2, ![5, 5]⟩) (c q : Fin 5) :
    extractStridedSlice ⟨2, ![5, 5]⟩ ![0, 0] W h (ix2 c q) = W (ix2 (⟨c.val, by have := c.isLt; omega⟩ : Fin 20) q) :=
  extractStridedSlice_apply _ W h (ix2 c q) _ fun a => match a with
    | ⟨0, _⟩ => by show c.val = 0 + c.val; omega
    | ⟨1, _⟩ => by show q.val = 0 + q.val; omega

/-- Rows 5–9. -/
theorem rows_5 (W : (⟨2, ![20, 5]⟩ : Shape).Idx → α) (h : (⟨2, ![20, 5]⟩ : Shape).Slices ![5, 0] ⟨2, ![5, 5]⟩) (c q : Fin 5) :
    extractStridedSlice ⟨2, ![5, 5]⟩ ![5, 0] W h (ix2 c q) = W (ix2 (⟨5 + c.val, by have := c.isLt; omega⟩ : Fin 20) q) :=
  extractStridedSlice_apply _ W h (ix2 c q) _ fun a => match a with
    | ⟨0, _⟩ => by show 5 + c.val = 5 + c.val; rfl
    | ⟨1, _⟩ => by show q.val = 0 + q.val; omega

/-- Rows 10–14. -/
theorem rows_10 (W : (⟨2, ![20, 5]⟩ : Shape).Idx → α) (h : (⟨2, ![20, 5]⟩ : Shape).Slices ![10, 0] ⟨2, ![5, 5]⟩) (c q : Fin 5) :
    extractStridedSlice ⟨2, ![5, 5]⟩ ![10, 0] W h (ix2 c q) = W (ix2 (⟨5 + 5 + c.val, by have := c.isLt; omega⟩ : Fin 20) q) :=
  extractStridedSlice_apply _ W h (ix2 c q) _ fun a => match a with
    | ⟨0, _⟩ => by show 5 + 5 + c.val = 10 + c.val; omega
    | ⟨1, _⟩ => by show q.val = 0 + q.val; omega

/-- Rows 15–19. -/
theorem rows_15 (W : (⟨2, ![20, 5]⟩ : Shape).Idx → α) (h : (⟨2, ![20, 5]⟩ : Shape).Slices ![15, 0] ⟨2, ![5, 5]⟩) (c q : Fin 5) :
    extractStridedSlice ⟨2, ![5, 5]⟩ ![15, 0] W h (ix2 c q) = W (ix2 (⟨5 + 5 + 5 + c.val, by have := c.isLt; omega⟩ : Fin 20) q) :=
  extractStridedSlice_apply _ W h (ix2 c q) _ fun a => match a with
    | ⟨0, _⟩ => by show 5 + 5 + 5 + c.val = 15 + c.val; omega
    | ⟨1, _⟩ => by show q.val = 0 + q.val; omega

/-- A block's product with a k×5 matrix accumulated into zero, plus a bias row repeated down the block: the dense
    layer of the block's rows. -/
theorem dense_eq {m k : ℕ} {φ₁ φ₂ : FTy} (x : FVec Ideal ⟨2, ![m, k]⟩ φ₁) (w : FVec Ideal ⟨2, ![k, 5]⟩ φ₂)
    (r : FVec Ideal ⟨2, ![1, 5]⟩ .f32)
    (hb : (⟨2, ![1, 5]⟩ : Shape).Broadcasts ⟨2, ![m, 5]⟩) (hc : (⟨2, ![1, 5]⟩ : Shape).ShapeCasts ⟨2, ![1, 5]⟩) :
    addf (matmul (F := Ideal) (DotDims.plain m k 5) none x w (constant (F := Ideal) ⟨2, ![m, 5]⟩ .f32 0x00000000#32))
        (broadcastTo ⟨2, ![m, 5]⟩ (shapeCast ⟨2, ![1, 5]⟩ r hc) hb)
      = denseRows x w r := by
  funext i
  obtain ⟨a, q, rfl⟩ : ∃ (a : Fin m) (q : Fin 5), i = ix2 a q := ⟨i 0, i 1, eq_ix2 i⟩
  show matmul (F := Ideal) (DotDims.plain m k 5) none x w (constant (F := Ideal) ⟨2, ![m, 5]⟩ .f32 0x00000000#32) (ix2 a q)
      + broadcastTo ⟨2, ![m, 5]⟩ (shapeCast ⟨2, ![1, 5]⟩ r hc) hb (ix2 a q) = _
  rw [matmul_plain_zero_apply, broadcastTo_1b_ab_apply, shapeCast_self, denseRows_apply]

/-- The first layer on a block: three block products and one repeated row product against the four row-blocks of W,
    added from the left, plus the bias row. -/
theorem mixed_eq {m : ℕ} {φ₁ φ₂ : FTy}
    (xe xs xr : FVec Ideal ⟨2, ![m, 5]⟩ φ₁) (g : FVec Ideal ⟨2, ![1, 5]⟩ φ₁) (W : FVec Ideal ⟨2, ![20, 5]⟩ φ₂)
    (b : FVec Ideal ⟨2, ![1, 5]⟩ .f32)
    (s0 : (⟨2, ![20, 5]⟩ : Shape).Slices ![0, 0] ⟨2, ![5, 5]⟩) (s1 : (⟨2, ![20, 5]⟩ : Shape).Slices ![5, 0] ⟨2, ![5, 5]⟩)
    (s2 : (⟨2, ![20, 5]⟩ : Shape).Slices ![10, 0] ⟨2, ![5, 5]⟩) (s3 : (⟨2, ![20, 5]⟩ : Shape).Slices ![15, 0] ⟨2, ![5, 5]⟩)
    (hb : (⟨2, ![1, 5]⟩ : Shape).Broadcasts ⟨2, ![m, 5]⟩) (hc : (⟨2, ![1, 5]⟩ : Shape).ShapeCasts ⟨2, ![1, 5]⟩) :
    addf (addf (addf (addf (matmul (F := Ideal) (DotDims.plain m 5 5) none xe (extractStridedSlice ⟨2, ![5, 5]⟩ ![0, 0] W s0) (constant (F := Ideal) ⟨2, ![m, 5]⟩ .f32 0x00000000#32))
              (matmul (F := Ideal) (DotDims.plain m 5 5) none xs (extractStridedSlice ⟨2, ![5, 5]⟩ ![5, 0] W s1) (constant (F := Ideal) ⟨2, ![m, 5]⟩ .f32 0x00000000#32)))
            (matmul (F := Ideal) (DotDims.plain m 5 5) none xr (extractStridedSlice ⟨2, ![5, 5]⟩ ![10, 0] W s2) (constant (F := Ideal) ⟨2, ![m, 5]⟩ .f32 0x00000000#32)))
          (broadcastTo ⟨2, ![m, 5]⟩ (matmul (F := Ideal) (DotDims.plain 1 5 5) none g (extractStridedSlice ⟨2, ![5, 5]⟩ ![15, 0] W s3) (constant (F := Ideal) ⟨2, ![1, 5]⟩ .f32 0x00000000#32)) hb))
        (broadcastTo ⟨2, ![m, 5]⟩ (shapeCast ⟨2, ![1, 5]⟩ b hc) hb)
      = mix4 (n := 5) (N := 20) rfl xe xs xr g W b := by
  funext i
  obtain ⟨a, q, rfl⟩ : ∃ (a : Fin m) (q : Fin 5), i = ix2 a q := ⟨i 0, i 1, eq_ix2 i⟩
  show ((((matmul (F := Ideal) (DotDims.plain m 5 5) none xe (extractStridedSlice ⟨2, ![5, 5]⟩ ![0, 0] W s0) (constant (F := Ideal) ⟨2, ![m, 5]⟩ .f32 0x00000000#32)) (ix2 a q)
            + (matmul (F := Ideal) (DotDims.plain m 5 5) none xs (extractStridedSlice ⟨2, ![5, 5]⟩ ![5, 0] W s1) (constant (F := Ideal) ⟨2, ![m, 5]⟩ .f32 0x00000000#32)) (ix2 a q))
          + (matmul (F := Ideal) (DotDims.plain m 5 5) none xr (extractStridedSlice ⟨2, ![5, 5]⟩ ![10, 0] W s2) (constant (F := Ideal) ⟨2, ![m, 5]⟩ .f32 0x00000000#32)) (ix2 a q))
        + (broadcastTo ⟨2, ![m, 5]⟩ (matmul (F := Ideal) (DotDims.plain 1 5 5) none g (extractStridedSlice ⟨2, ![5, 5]⟩ ![15, 0] W s3) (constant (F := Ideal) ⟨2, ![1, 5]⟩ .f32 0x00000000#32)) hb) (ix2 a q))
      + (broadcastTo ⟨2, ![m, 5]⟩ (shapeCast ⟨2, ![1, 5]⟩ b hc) hb) (ix2 a q) = _
  simp only [matmul_plain_zero_apply, broadcastTo_1b_ab_apply, shapeCast_self, rows_0, rows_5, rows_10, rows_15, mix4_apply]

/-- The second layer on a block: the block clamped below at zero, its product with V, the bias row, the clamp again. -/
theorem clamped_dense_eq {m : ℕ} {φ : FTy}
    (Pre : FVec Ideal ⟨2, ![m, 5]⟩ .f32) (V : FVec Ideal ⟨2, ![5, 5]⟩ φ) (r : FVec Ideal ⟨2, ![1, 5]⟩ .f32)
    (hb : (⟨2, ![1, 5]⟩ : Shape).Broadcasts ⟨2, ![m, 5]⟩) (hc : (⟨2, ![1, 5]⟩ : Shape).ShapeCasts ⟨2, ![1, 5]⟩) :
    maximumf (addf (matmul (F := Ideal) (φ₁ := .bf16) (DotDims.plain m 5 5) none (clamp0 Pre) V (constant (F := Ideal) ⟨2, ![m, 5]⟩ .f32 0x00000000#32))
          (broadcastTo ⟨2, ![m, 5]⟩ (shapeCast ⟨2, ![1, 5]⟩ r hc) hb))
        (broadcast ⟨2, ![m, 5]⟩ (Scalar.ofBits .f32 0x00000000#32 : Ideal .f32))
      = reluRows (clamp0 Pre) V r := by
  funext i
  obtain ⟨a, q, rfl⟩ : ∃ (a : Fin m) (q : Fin 5), i = ix2 a q := ⟨i 0, i 1, eq_ix2 i⟩
  show max (matmul (F := Ideal) (φ₁ := .bf16) (DotDims.plain m 5 5) none (clamp0 Pre) V (constant (F := Ideal) ⟨2, ![m, 5]⟩ .f32 0x00000000#32) (ix2 a q)
        + broadcastTo ⟨2, ![m, 5]⟩ (shapeCast ⟨2, ![1, 5]⟩ r hc) hb (ix2 a q)) (Ideal.ofBits .f32 0x00000000#32) = _
  rw [matmul_plain_zero_apply, broadcastTo_1b_ab_apply, shapeCast_self, reluRows_apply]

end Cert.LayerBlocks

end
-- ==== Proof.EdgeBlock.lean ====
/-
  The edge kernel's block: the edge embedding, then the two layers of the edge update.

  At a grid point the body loads a 5120×32 block ef of edge features and the matching 5120×5 blocks ns, nr of the
  sender and receiver node embeddings, and whole: the global row g (1×5), the embedding weights we (32×5) and bias
  row be, the 20×5 matrix w1 with bias row b1, and the 5×5 matrix w2 with bias row b2. It computes
  e = ef·we + be (the dense layer of the block's rows), mixes e, ns, nr and g through the four row-blocks of w1 and
  adds b1, clamps at zero, multiplies by w2, adds b2 and clamps again. So the stored block is

      reluRows (clamp0 (mix4 (denseRows ef we be) ns nr g w1 b1)) w2 b2.

  The narrowings to bf16 before each product are the identity on the extended reals.
-/
import proofs.«123845_j19026705121528_1_alg».proof.Proof.Gen.KernelIdeal.Skeleton
import proofs.«123845_j19026705121528_1_alg».proof.Proof.LayerBlocks

noncomputable section

open scoped BigOperators

namespace Cert.KernelIdeal.EdgeBlock

open Cert.KernelIdeal Cert.KernelIdeal.Gen
open Idealize.ShloMosaic Idealize.ShloMosaic.ValueIdx Cert.DenseRows Cert.ReluRows Cert.MixedLayer Cert.LayerBlocks

/-- `mix4` of equal inputs is equal: its four mixed inputs may each be replaced by an equal one. -/
theorem mix4_congr {M n N k : ℕ} (hN : n + n + n + n = N)
    {A A' B B' C C' : (⟨2, ![M, n]⟩ : Shape).Idx → EReal} {g g' : (⟨2, ![1, n]⟩ : Shape).Idx → EReal}
    {W : (⟨2, ![N, k]⟩ : Shape).Idx → EReal} {b : (⟨2, ![1, k]⟩ : Shape).Idx → EReal}
    (hA : A = A') (hB : B = B') (hC : C = C') (hg : g = g') :
    mix4 hN A B C g W b = mix4 hN A' B' C' g' W b := by
  rw [hA, hB, hC, hg]

/-- The value the first part of the body hands on: the mix of the embedded edges, the two gathered blocks and the
    global row, before the clamp. -/
theorem first_eq (v0 : Vec Ideal S5120x32 .f32) (v2 : Vec Ideal S32x5 .f32) (v5 : Vec Ideal S1x5 .f32)
    (v9 v11 : Vec Ideal S5120x5 .f32) (v13 : Vec Ideal S1x5 .f32) (v15 : Vec Ideal S20x5 .f32) (v33 : Vec Ideal S1x5 .f32) :
    k1_pay2 (F := Ideal) v0 v2 v5 v9 v11 v13 v15 v33
      = mix4 (n := 5) (N := 20) rfl (denseRows v0 v2 v5) v9 v11 v13 v15 v33 := by
  unfold k1_pay2
  show addf (addf (addf (addf (matmul (F := Ideal) (φ₁ := .bf16) (φ₂ := .bf16) (DotDims.plain 5120 5 5) none (addf (matmul (F := Ideal) (φ₁ := .bf16) (φ₂ := .bf16) (DotDims.plain 5120 32 5) none v0 v2 (constant (F := Ideal) ⟨2, ![5120, 5]⟩ .f32 0x00000000#32))
                (broadcastTo ⟨2, ![5120, 5]⟩ (shapeCast ⟨2, ![1, 5]⟩ v5 shapeCasts_S1x5_S1x5) broadcasts_S1x5_S5120x5)) (extractStridedSlice ⟨2, ![5, 5]⟩ ![0, 0] v15 slices_S20x5_o0_0_S5x5) (constant (F := Ideal) ⟨2, ![5120, 5]⟩ .f32 0x00000000#32))
              (matmul (F := Ideal) (φ₁ := .bf16) (φ₂ := .bf16) (DotDims.plain 5120 5 5) none (shapeCast ⟨2, ![5120, 5]⟩ v9 shapeCasts_S5120x5_S5120x5) (extractStridedSlice ⟨2, ![5, 5]⟩ ![5, 0] v15 slices_S20x5_o5_0_S5x5) (constant (F := Ideal) ⟨2, ![5120, 5]⟩ .f32 0x00000000#32)))
            (matmul (F := Ideal) (φ₁ := .bf16) (φ₂ := .bf16) (DotDims.plain 5120 5 5) none (shapeCast ⟨2, ![5120, 5]⟩ v11 shapeCasts_S5120x5_S5120x5) (extractStridedSlice ⟨2, ![5, 5]⟩ ![10, 0] v15 slices_S20x5_o10_0_S5x5) (constant (F := Ideal) ⟨2, ![5120, 5]⟩ .f32 0x00000000#32)))
          (broadcastTo ⟨2, ![5120, 5]⟩ (matmul (F := Ideal) (φ₁ := .bf16) (φ₂ := .bf16) (DotDims.plain 1 5 5) none (shapeCast ⟨2, ![1, 5]⟩ v13 shapeCasts_S1x5_S1x5) (extractStridedSlice ⟨2, ![5, 5]⟩ ![15, 0] v15 slices_S20x5_o15_0_S5x5) (constant (F := Ideal) ⟨2, ![1, 5]⟩ .f32 0x00000000#32)) broadcasts_S1x5_S5120x5))
        (broadcastTo ⟨2, ![5120, 5]⟩ (shapeCast ⟨2, ![1, 5]⟩ v33 shapeCasts_S1x5_S1x5) broadcasts_S1x5_S5120x5) = _
  refine (mixed_eq (m := 5120) (φ₁ := .bf16) (φ₂ := .bf16) (addf (matmul (F := Ideal) (φ₁ := .bf16) (φ₂ := .bf16) (DotDims.plain 5120 32 5) none v0 v2 (constant (F := Ideal) ⟨2, ![5120, 5]⟩ .f32 0x00000000#32))
                (broadcastTo ⟨2, ![5120, 5]⟩ (shapeCast ⟨2, ![1, 5]⟩ v5 shapeCasts_S1x5_S1x5) broadcasts_S1x5_S5120x5))
      (shapeCast ⟨2, ![5120, 5]⟩ v9 shapeCasts_S5120x5_S5120x5) (shapeCast ⟨2, ![5120, 5]⟩ v11 shapeCasts_S5120x5_S5120x5) (shapeCast ⟨2, ![1, 5]⟩ v13 shapeCasts_S1x5_S1x5) v15 v33
      slices_S20x5_o0_0_S5x5 slices_S20x5_o5_0_S5x5 slices_S20x5_o10_0_S5x5 slices_S20x5_o15_0_S5x5 broadcasts_S1x5_S5120x5 shapeCasts_S1x5_S1x5).trans ?_
  exact mix4_congr rfl
    (dense_eq (m := 5120) (k := 32) (φ₁ := .bf16) (φ₂ := .bf16) v0 v2 v5 broadcasts_S1x5_S5120x5 shapeCasts_S1x5_S1x5)
    (shapeCast_self _ _) (shapeCast_self _ _) (shapeCast_self _ _)

/-- The second part: clamp, product with w2, bias row, clamp. -/
theorem second_eq (pre : FVec Ideal S5120x5 .f32) (v39 : Vec Ideal S5x5 .f32) (v43 : Vec Ideal S1x5 .f32) :
    k1_pay1 (F := Ideal) pre (Scalar.ofBits .f32 0x00000000#32) v39 v43 = reluRows (clamp0 pre) v39 v43 := by
  unfold k1_pay1
  exact clamped_dense_eq (m := 5120) pre v39 v43 broadcasts_S1x5_S5120x5 shapeCasts_S1x5_S1x5

/-- What the body stores, from the ten loaded values. -/
theorem stored_eq (v0 : Vec Ideal S5120x32 .f32) (v2 : Vec Ideal S32x5 .f32) (v5 : Vec Ideal S1x5 .f32)
    (v9 v11 : Vec Ideal S5120x5 .f32) (v13 : Vec Ideal S1x5 .f32) (v15 : Vec Ideal S20x5 .f32) (v33 : Vec Ideal S1x5 .f32)
    (v39 : Vec Ideal S5x5 .f32) (v43 : Vec Ideal S1x5 .f32) :
    k1_pay1 (F := Ideal) (k1_pay2 (F := Ideal) v0 v2 v5 v9 v11 v13 v15 v33) (Scalar.ofBits .f32 0x00000000#32) v39 v43
      = reluRows (clamp0 (mix4 (n := 5) (N := 20) rfl (denseRows v0 v2 v5) v9 v11 v13 v15 v33)) v39 v43 := by
  rw [first_eq, second_eq]

end Cert.KernelIdeal.EdgeBlock

end
-- ==== Proof.RowLocal.lean ====
/-
  Row-local layers: a block of rows of the result is the result of the same block of rows of the input.

  A dense layer, and the two-layer function reluRows (clamp0 (mix4 A B C g W b)) W2 b2, compute row p of their
  result from row p of their row-indexed inputs (A, B, C) and from the whole of their other inputs (g, W, b, W2,
  b2). So where blocks a0, b0, c0 hold, row for row, the rows e p of A, B, C, the function of the blocks at (p, q)
  is the function of the arrays at (e p, q). This is what lets a result computed block by block over a grid be read
  as one function of the whole arrays.
-/
import proofs.«123845_j19026705121528_1_alg».proof.Proof.LibReluRows
import proofs.«123845_j19026705121528_1_alg».proof.Proof.MixedLayer

noncomputable section

open scoped BigOperators

namespace Cert.RowLocal

open Idealize.ShloMosaic Idealize.ShloMosaic.ValueIdx Cert.DenseRows Cert.ReluRows Cert.MixedLayer

/-- Row p of a dense layer depends on row p of its input only. -/
theorem denseRows_rows {m M k n : ℕ} (X : (⟨2, ![M, k]⟩ : Shape).Idx → EReal) (W : (⟨2, ![k, n]⟩ : Shape).Idx → EReal)
    (r : (⟨2, ![1, n]⟩ : Shape).Idx → EReal) (e : Fin m → Fin M) (x0 : (⟨2, ![m, k]⟩ : Shape).Idx → EReal)
    (h : ∀ (p : Fin m) (c : Fin k), x0 (ix2 p c) = X (ix2 (e p) c)) (p : Fin m) (q : Fin n) :
    denseRows x0 W r (ix2 p q) = denseRows X W r (ix2 (e p) q) := by
  rw [denseRows_apply, denseRows_apply]
  simp only [h]

/-- Row p of the two-layer function depends on row p of the three mixed inputs only. -/
theorem layers_rows {m M n N k l : ℕ} (hN : n + n + n + n = N)
    (A B C : (⟨2, ![M, n]⟩ : Shape).Idx → EReal) (a0 b0 c0 : (⟨2, ![m, n]⟩ : Shape).Idx → EReal)
    (g : (⟨2, ![1, n]⟩ : Shape).Idx → EReal) (W : (⟨2, ![N, k]⟩ : Shape).Idx → EReal)
    (b : (⟨2, ![1, k]⟩ : Shape).Idx → EReal) (W2 : (⟨2, ![k, l]⟩ : Shape).Idx → EReal)
    (b2 : (⟨2, ![1, l]⟩ : Shape).Idx → EReal) (e : Fin m → Fin M)
    (hA : ∀ (p : Fin m) (c : Fin n), a0 (ix2 p c) = A (ix2 (e p) c))
    (hB : ∀ (p : Fin m) (c : Fin n), b0 (ix2 p c) = B (ix2 (e p) c))
    (hC : ∀ (p : Fin m) (c : Fin n), c0 (ix2 p c) = C (ix2 (e p) c)) (p : Fin m) (q : Fin l) :
    reluRows (clamp0 (mix4 hN a0 b0 c0 g W b)) W2 b2 (ix2 p q)
      = reluRows (clamp0 (mix4 hN A B C g W b)) W2 b2 (ix2 (e p) q) :=
  reluRows_rows (clamp0 (mix4 hN A B C g W b)) W2 b2 e (clamp0 (mix4 hN a0 b0 c0 g W b))
    (fun p c => by
      show max (mix4 hN a0 b0 c0 g W b (ix2 p c)) _ = max (mix4 hN A B C g W b (ix2 (e p) c)) _
      rw [mix4_rows hN A B C a0 b0 c0 g W b e hA hB hC p c]) p q

end Cert.RowLocal

end
-- ==== Proof.EdgeArray.lean ====
/-
  Region 1's result array: the updated edges as one function of the arrays the region finds.

  The grid has 625 points. At point t the body sees rows 5120·t … 5120·t + 5119 of the edge features and of the two
  gathered node-embedding arrays, and the whole of the seven small arrays (the global row, the embedding weights
  and bias row, the two layers' matrices and bias rows); it writes back the same rows of the 3200000×5 result. What
  it writes is the edge embedding followed by the two-layer update of the rows it sees, and each of those computes
  a row of its result from the same row of its row-indexed inputs; so the block written at t is block t of

      edges = reluRows (clamp0 (mix4 (denseRows feats we be) ns nr g w1 b1)) w2 b2

  of the whole arrays. The 625 blocks tile the result (row r lies in block r / 5120), so after the region the result
  array is `edges`, whatever it held before.
-/
import proofs.«123845_j19026705121528_1_alg».proof.Proof.Gen.KernelIdeal.Frame
import proofs.«123845_j19026705121528_1_alg».proof.Proof.EdgeBlock
import proofs.«123845_j19026705121528_1_alg».proof.Proof.RowLocal

set_option maxRecDepth 16384

noncomputable section

open scoped BigOperators

namespace Cert.KernelIdeal.EdgeArray

open Cert.KernelIdeal Cert.KernelIdeal.Gen
open Idealize.ShloMosaic Idealize.ShloMosaic.TcCoe Idealize.SL.Sem
open Idealize.ShloMosaic.ValueIdx Cert.DenseRows Cert.ReluRows Cert.MixedLayer Cert.RowLocal
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 625 points: a window cut along the rows sits at block (t, 0), a window over a
    whole small array at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = t.val
    ∧ win1_10.index t (1 : Fin 2) = 0 :=
  (by decide +kernel : ∀ t : Fin grid1.N, _)

/-- The edge embedding and the two-layer edge update of the whole arrays, as the region finds them. -/
def edges (c : Dev nD) : S3200000x5.Idx → EReal :=
  reluRows (clamp0 (mix4 (n := 5) (N := 20) rfl
      (denseRows (V c main_arg1 : S3200000x32.Idx → EReal) (V c main_arg5 : S32x5.Idx → EReal) (V c main_v19 : S1x5.Idx → EReal))
      (V c main_v11 : S3200000x5.Idx → EReal) (V c main_v18 : S3200000x5.Idx → EReal) (V c main_v4 : S1x5.Idx → EReal)
      (V c main_arg11 : S20x5.Idx → EReal) (V c main_v20 : S1x5.Idx → EReal)))
    (V c main_arg13 : S5x5.Idx → EReal) (V c main_v21 : S1x5.Idx → EReal)

/-- What point t writes back is block t of `edges`. -/
theorem flushed_eq (c : Dev nD) (t : Fin cfg1.N) :
    (dat1 V c).flushed 10 t = ((cfg1.win 10).blk t).view.read (Elt Ideal) (edges V c) := by
  show (cfg1.win 10).cut (grid1.coords t) ((dat1 V c).after 10 t) = _
  rw [after1_10]
  unfold out1_10
  rw [View.canon_unit_zero hz]
  simp only [View.ld_unit_zero (S := S5120x32) hz, View.ld_unit_zero (S := S32x5) hz, View.ld_unit_zero (S := S1x5) hz, View.ld_unit_zero (S := S5120x5) hz, View.ld_unit_zero (S := S20x5) hz, View.ld_unit_zero (S := S5x5) hz]
  rw [EdgeBlock.stored_eq]
  obtain ⟨r0a, r0b, r1a, r1b, r2a, r2b, r3a, r3b, r4a, r4b, r5a, r5b, r6a, r6b, r7a, r7b, r8a, r8b, r9a, r9b, r10a, r10b⟩ := idx_facts t
  have ht : t.val < 625 := lt_of_lt_of_eq t.isLt N_1
  -- a window over a whole small array: its one block is the array
  have hW3 : iblk1 V c 3 t = V c main_v4 := by
    funext y
    show V c main_v4 (((cfg1.win 3).blk t).view.emb y) = V c main_v4 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 5 + 1 * (y 1).val = (y 1).val; omega
  have hW4 : iblk1 V c 4 t = V c main_arg5 := by
    funext y
    show V c main_arg5 (((cfg1.win 4).blk t).view.emb y) = V c main_arg5 y
    refine congrArg _ (funext fun a => Fin.ext ?_)
    match a with
    | ⟨0, _⟩ => show win1_4.index t (0 : Fin 2) * 32 + 1 * (y 0).val = (y 0).val; omega
    | ⟨1, _⟩ => show win1_4.index t (1 : Fin 2) * 5 + 1 * (y 1).val = (y 1).val; omega
  have hW5 : iblk1 V c 5 t = V c main_v19 := by
    funext y
    show V c main_v19 (((cfg1.win 5).blk t).view.emb y) = V c main_v19 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 5 + 1 * (y 1).val = (y 1).val; omega
  have hW6 : iblk1 V c 6 t = V c main_arg11 := by
    funext y
    show V c main_arg11 (((cfg1.win 6).blk t).view.emb y) = V c main_arg11 y
    refine congrArg _ (funext fun a => Fin.ext ?_)
    match a with
    | ⟨0, _⟩ => show win1_6.index t (0 : Fin 2) * 20 + 1 * (y 0).val = (y 0).val; omega
    | ⟨1, _⟩ => show win1_6.index t (1 : Fin 2) * 5 + 1 * (y 1).val = (y 1).val; omega
  have hW7 : iblk1 V c 7 t = V c main_v20 := by
    funext y
    show V c main_v20 (((cfg1.win 7).blk t).view.emb y) = V c main_v20 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 5 + 1 * (y 1).val = (y 1).val; omega
  have hW8 : iblk1 V c 8 t = V c main_arg13 := by
    funext y
    show V c main_arg13 (((cfg1.win 8).blk t).view.emb y) = V c main_arg13 y
    refine congrArg _ (funext fun a => Fin.ext ?_)
    match a with
    | ⟨0, _⟩ => show win1_8.index t (0 : Fin 2) * 5 + 1 * (y 0).val = (y 0).val; omega
    | ⟨1, _⟩ => show win1_8.index t (1 : Fin 2) * 5 + 1 * (y 1).val = (y 1).val; omega
  have hW9 : iblk1 V c 9 t = V c main_v21 := by
    funext y
    show V c main_v21 (((cfg1.win 9).blk t).view.emb y) = V c main_v21 y
    refine congrArg _ (funext fun a => Fin.ext ?_)
    match a with
    | ⟨0, _⟩ => show win1_9.index t (0 : Fin 2) * 1 + 1 * (y 0).val = (y 0).val; omega
    | ⟨1, _⟩ => show win1_9.index t (1 : Fin 2) * 5 + 1 * (y 1).val = (y 1).val; omega
  -- a window cut along the rows: row p of its block is row 5120·t + p of its array
  have hX0 : ∀ (p : Fin 5120) (k : Fin 32), iblk1 V c 0 t (ix2 p k)
      = V c main_arg1 (ix2 (⟨t.val * 5120 + p.val, by have := p.isLt; omega⟩ : Fin 3200000) k) := fun p k => by
    show V c main_arg1 (((cfg1.win 0).blk t).view.emb (ix2 p k)) = V c main_arg1 (ix2 (⟨t.val * 5120 + p.val, _⟩ : Fin 3200000) k)
    refine congrArg _ (funext fun a => Fin.ext ?_)
    match a with
    | ⟨0, _⟩ => show win1_0.index t (0 : Fin 2) * 5120 + 1 * p.val = t.val * 5120 + p.val; omega
    | ⟨1, _⟩ => show win1_0.index t (1 : Fin 2) * 32 + 1 * k.val = k.val; omega
  have hX1 : ∀ (p : Fin 5120) (k : Fin 5), iblk1 V c 1 t (ix2 p k)
      = V c main_v11 (ix2 (⟨t.val * 5120 + p.val, by have := p.isLt; omega⟩ : Fin 3200000) k) := fun p k => by
    show V c main_v11 (((cfg1.win 1).blk t).view.emb (ix2 p k)) = V c main_v11 (ix2 (⟨t.val * 5120 + p.val, _⟩ : Fin 3200000) k)
    refine congrArg _ (funext fun a => Fin.ext ?_)
    match a with
    | ⟨0, _⟩ => show win1_1.index t (0 : Fin 2) * 5120 + 1 * p.val = t.val * 5120 + p.val; omega
    | ⟨1, _⟩ => show win1_1.index t (1 : Fin 2) * 5 + 1 * k.val = k.val; omega
  have hX2 : ∀ (p : Fin 5120) (k : Fin 5), iblk1 V c 2 t (ix2 p k)
      = V c main_v18 (ix2 (⟨t.val * 5120 + p.val, by have := p.isLt; omega⟩ : Fin 3200000) k) := fun p k => by
    show V c main_v18 (((cfg1.win 2).blk t).view.emb (ix2 p k)) = V c main_v18 (ix2 (⟨t.val * 5120 + p.val, _⟩ : Fin 3200000) k)
    refine congrArg _ (funext fun a => Fin.ext ?_)
    match a with
    | ⟨0, _⟩ => show win1_2.index t (0 : Fin 2) * 5120 + 1 * p.val = t.val * 5120 + p.val; omega
    | ⟨1, _⟩ => show win1_2.index t (1 : Fin 2) * 5 + 1 * k.val = k.val; omega
  funext j
  have hj0 : (j 0).val < 5120 := (j 0).isLt
  have hJ : ((cfg1.win 10).blk t).view.emb j
      = ix2 (⟨t.val * 5120 + (j 0).val, by omega⟩ : Fin 3200000) (j 1) :=
    funext fun a => Fin.ext (by
      match a with
      | ⟨0, _⟩ => show win1_10.index t (0 : Fin 2) * 5120 + 1 * (j 0).val = t.val * 5120 + (j 0).val; omega
      | ⟨1, _⟩ => show win1_10.index t (1 : Fin 2) * 5 + 1 * (j 1).val = (j 1).val; omega)
  show (reluRows (clamp0 (mix4 (n := 5) (N := 20) rfl (denseRows (iblk1 V c 0 t) (iblk1 V c 4 t) (iblk1 V c 5 t)) (iblk1 V c 1 t) (iblk1 V c 2 t) (iblk1 V c 3 t) (iblk1 V c 6 t) (iblk1 V c 7 t))) (iblk1 V c 8 t) (iblk1 V c 9 t)) j = edges V c (((cfg1.win 10).blk t).view.emb j)
  refine (congrArg (reluRows (clamp0 (mix4 (n := 5) (N := 20) rfl (denseRows (iblk1 V c 0 t) (iblk1 V c 4 t) (iblk1 V c 5 t)) (iblk1 V c 1 t) (iblk1 V c 2 t) (iblk1 V c 3 t) (iblk1 V c 6 t) (iblk1 V c 7 t))) (iblk1 V c 8 t) (iblk1 V c 9 t)) (eq_ix2 j)).trans ?_
  rw [hJ, hW3, hW4, hW5, hW6, hW7, hW8, hW9]
  exact layers_rows rfl (denseRows (V c main_arg1) (V c main_arg5) (V c main_v19)) (V c main_v11) (V c main_v18)
    (denseRows (iblk1 V c 0 t) (V c main_arg5) (V c main_v19)) (iblk1 V c 1 t) (iblk1 V c 2 t)
    (V c main_v4) (V c main_arg11) (V c main_v20) (V c main_arg13) (V c main_v21)
    (fun p => (⟨t.val * 5120 + p.val, by have := p.isLt; omega⟩ : Fin 3200000))
    (fun p k => denseRows_rows (V c main_arg1) (V c main_arg5) (V c main_v19) (fun p => (⟨t.val * 5120 + p.val, by have := p.isLt; omega⟩ : Fin 3200000)) (iblk1 V c 0 t) hX0 p k)
    hX1 hX2 (j 0) (j 1)

/-- An index of the result is in point t's block iff each coordinate is in the block's range on its axis. -/
theorem mem_blk (t : Fin cfg1.N) (i : S3200000x5.Idx) :
    i ∈ ((cfg1.win 10).blk t).view.set ↔ ∀ a : Fin 2, win1_10.index t a * S5120x5.size a ≤ (i a).val ∧ (i a).val < win1_10.index t a * S5120x5.size a + S5120x5.size a := by
  show i ∈ ((View.whole main_v22).slice (win1_10.rect t)).set ↔ _
  rw [View.set_slice_whole, Rect.mem_set_unit]
  exact Iff.rfl

/-- Every index of the result lies in some point's block: row r in block r / 5120. -/
theorem cover (i : S3200000x5.Idx) : ∃ t : Fin cfg1.N, (cfg1.win 10).flush t = true ∧ i ∈ ((cfg1.win 10).blk t).view.set := by
  have hi0 : (i 0).val < 3200000 := (i 0).isLt
  have hi1 : (i 1).val < 5 := (i 1).isLt
  have ht : (i 0).val / 5120 < cfg1.N := lt_of_lt_of_eq (by omega : (i 0).val / 5120 < 625) N_1.symm
  refine ⟨⟨(i 0).val / 5120, ht⟩, flush1_10 _, ?_⟩
  rw [mem_blk]
  have hf := idx_facts ⟨(i 0).val / 5120, ht⟩
  have ea : win1_10.index ⟨(i 0).val / 5120, ht⟩ (0 : Fin 2) = (i 0).val / 5120 := hf.2.2.2.2.2.2.2.2.2.2.2.2.2.2.2.2.2.2.2.2.1
  have eb : win1_10.index ⟨(i 0).val / 5120, ht⟩ (1 : Fin 2) = 0 := hf.2.2.2.2.2.2.2.2.2.2.2.2.2.2.2.2.2.2.2.2.2
  intro a
  match a with
  | ⟨0, _⟩ =>
    show win1_10.index ⟨(i 0).val / 5120, ht⟩ (0 : Fin 2) * 5120 ≤ (i 0).val ∧ (i 0).val < win1_10.index ⟨(i 0).val / 5120, ht⟩ (0 : Fin 2) * 5120 + 5120
    rw [ea]; omega
  | ⟨1, _⟩ =>
    show win1_10.index ⟨(i 0).val / 5120, ht⟩ (1 : Fin 2) * 5 ≤ (i 1).val ∧ (i 1).val < win1_10.index ⟨(i 0).val / 5120, ht⟩ (1 : Fin 2) * 5 + 5
    rw [eb]; omega

/-- After the region the result array is `edges` of the arrays the region found. -/
theorem array_eq (c : Dev nD) : (dat1 V c).arrAt 10 cfg1.N = edges V c :=
  (dat1 V c).arrAt_eq_of_cover 10 (edges V c) (fun t _ => flushed_eq V c t) (cover)

end Cert.KernelIdeal.EdgeArray

end
-- ==== Proof.NodeUpdateBlock.lean ====
/-
  The node-update kernel's block: the two layers of the node update.

  At a grid point the body loads the matching 4000×5 blocks of the node embeddings n and of the two aggregates sent
  and recv, and whole: the global row g (1×5), the 20×5 matrix w1 with bias row b1, and the 5×5 matrix w2 with bias
  row b2. It mixes n, sent, recv and g through the four row-blocks of w1 and adds b1, clamps at zero, multiplies by
  w2, adds b2 and clamps again. So the stored block is

      reluRows (clamp0 (mix4 n sent recv g w1 b1)) w2 b2.

  The narrowings to bf16 before each product are the identity on the extended reals.
-/
import proofs.«123845_j19026705121528_1_alg».proof.Proof.Gen.KernelIdeal.Skeleton
import proofs.«123845_j19026705121528_1_alg».proof.Proof.LayerBlocks

noncomputable section

open scoped BigOperators

namespace Cert.KernelIdeal.NodeUpdateBlock

open Cert.KernelIdeal Cert.KernelIdeal.Gen
open Idealize.ShloMosaic Idealize.ShloMosaic.ValueIdx Cert.DenseRows Cert.ReluRows Cert.MixedLayer Cert.LayerBlocks

/-- The first layer of the body, before its clamp, is the mix of the three loaded blocks and the global row. -/
theorem first_eq (v0 v2 v4 : Vec Ideal S4000x5 .f32) (v6 : Vec Ideal S1x5 .f32) (v8 : Vec Ideal S20x5 .f32)
    (v26 : Vec Ideal S1x5 .f32) :
    addf (addf (addf (addf (matmul (F := Ideal) (φ₁ := .bf16) (φ₂ := .bf16) (DotDims.plain 4000 5 5) none (shapeCast ⟨2, ![4000, 5]⟩ v0 shapeCasts_S4000x5_S4000x5) (extractStridedSlice ⟨2, ![5, 5]⟩ ![0, 0] v8 slices_S20x5_o0_0_S5x5) (constant (F := Ideal) ⟨2, ![4000, 5]⟩ .f32 0x00000000#32))
              (matmul (F := Ideal) (φ₁ := .bf16) (φ₂ := .bf16) (DotDims.plain 4000 5 5) none (shapeCast ⟨2, ![4000, 5]⟩ v2 shapeCasts_S4000x5_S4000x5) (extractStridedSlice ⟨2, ![5, 5]⟩ ![5, 0] v8 slices_S20x5_o5_0_S5x5) (constant (F := Ideal) ⟨2, ![4000, 5]⟩ .f32 0x00000000#32)))
            (matmul (F := Ideal) (φ₁ := .bf16) (φ₂ := .bf16) (DotDims.plain 4000 5 5) none (shapeCast ⟨2, ![4000, 5]⟩ v4 shapeCasts_S4000x5_S4000x5) (extractStridedSlice ⟨2, ![5, 5]⟩ ![10, 0] v8 slices_S20x5_o10_0_S5x5) (constant (F := Ideal) ⟨2, ![4000, 5]⟩ .f32 0x00000000#32)))
          (broadcastTo ⟨2, ![4000, 5]⟩ (matmul (F := Ideal) (φ₁ := .bf16) (φ₂ := .bf16) (DotDims.plain 1 5 5) none (shapeCast ⟨2, ![1, 5]⟩ v6 shapeCasts_S1x5_S1x5) (extractStridedSlice ⟨2, ![5, 5]⟩ ![15, 0] v8 slices_S20x5_o15_0_S5x5) (constant (F := Ideal) ⟨2, ![1, 5]⟩ .f32 0x00000000#32)) broadcasts_S1x5_S4000x5))
        (broadcastTo ⟨2, ![4000, 5]⟩ (shapeCast ⟨2, ![1, 5]⟩ v26 shapeCasts_S1x5_S1x5) broadcasts_S1x5_S4000x5)
      = mix4 (n := 5) (N := 20) rfl v0 v2 v4 v6 v8 v26 := by
  refine (mixed_eq (m := 4000) (φ₁ := .bf16) (φ₂ := .bf16) (shapeCast ⟨2, ![4000, 5]⟩ v0 shapeCasts_S4000x5_S4000x5) (shapeCast ⟨2, ![4000, 5]⟩ v2 shapeCasts_S4000x5_S4000x5)
      (shapeCast ⟨2, ![4000, 5]⟩ v4 shapeCasts_S4000x5_S4000x5) (shapeCast ⟨2, ![1, 5]⟩ v6 shapeCasts_S1x5_S1x5) v8 v26
      slices_S20x5_o0_0_S5x5 slices_S20x5_o5_0_S5x5 slices_S20x5_o10_0_S5x5 slices_S20x5_o15_0_S5x5 broadcasts_S1x5_S4000x5 shapeCasts_S1x5_S1x5).trans ?_
  simp only [shapeCast_self]

/-- What the body stores, from the eight loaded values. -/
theorem stored_eq (v0 v2 v4 : Vec Ideal S4000x5 .f32) (v6 : Vec Ideal S1x5 .f32) (v8 : Vec Ideal S20x5 .f32)
    (v26 : Vec Ideal S1x5 .f32) (v32 : Vec Ideal S5x5 .f32) (v36 : Vec Ideal S1x5 .f32) :
    k2_pay1 (F := Ideal) (k2_pay2 (F := Ideal) v0 v2 v4 v6 v8 v26 v32) v36
      = reluRows (clamp0 (mix4 (n := 5) (N := 20) rfl v0 v2 v4 v6 v8 v26)) v32 v36 := by
  unfold k2_pay1 k2_pay2
  show maximumf (addf (matmul (F := Ideal) (φ₁ := .bf16) (φ₂ := .bf16) (DotDims.plain 4000 5 5) none
            (clamp0 (addf (addf (addf (addf (matmul (F := Ideal) (φ₁ := .bf16) (φ₂ := .bf16) (DotDims.plain 4000 5 5) none (shapeCast ⟨2, ![4000, 5]⟩ v0 shapeCasts_S4000x5_S4000x5) (extractStridedSlice ⟨2, ![5, 5]⟩ ![0, 0] v8 slices_S20x5_o0_0_S5x5) (constant (F := Ideal) ⟨2, ![4000, 5]⟩ .f32 0x00000000#32))
              (matmul (F := Ideal) (φ₁ := .bf16) (φ₂ := .bf16) (DotDims.plain 4000 5 5) none (shapeCast ⟨2, ![4000, 5]⟩ v2 shapeCasts_S4000x5_S4000x5) (extractStridedSlice ⟨2, ![5, 5]⟩ ![5, 0] v8 slices_S20x5_o5_0_S5x5) (constant (F := Ideal) ⟨2, ![4000, 5]⟩ .f32 0x00000000#32)))
            (matmul (F := Ideal) (φ₁ := .bf16) (φ₂ := .bf16) (DotDims.plain 4000 5 5) none (shapeCast ⟨2, ![4000, 5]⟩ v4 shapeCasts_S4000x5_S4000x5) (extractStridedSlice ⟨2, ![5, 5]⟩ ![10, 0] v8 slices_S20x5_o10_0_S5x5) (constant (F := Ideal) ⟨2, ![4000, 5]⟩ .f32 0x00000000#32)))
          (broadcastTo ⟨2, ![4000, 5]⟩ (matmul (F := Ideal) (φ₁ := .bf16) (φ₂ := .bf16) (DotDims.plain 1 5 5) none (shapeCast ⟨2, ![1, 5]⟩ v6 shapeCasts_S1x5_S1x5) (extractStridedSlice ⟨2, ![5, 5]⟩ ![15, 0] v8 slices_S20x5_o15_0_S5x5) (constant (F := Ideal) ⟨2, ![1, 5]⟩ .f32 0x00000000#32)) broadcasts_S1x5_S4000x5))
        (broadcastTo ⟨2, ![4000, 5]⟩ (shapeCast ⟨2, ![1, 5]⟩ v26 shapeCasts_S1x5_S1x5) broadcasts_S1x5_S4000x5)))
            v32 (constant (F := Ideal) ⟨2, ![4000, 5]⟩ .f32 0x00000000#32))
          (broadcastTo ⟨2, ![4000, 5]⟩ (shapeCast ⟨2, ![1, 5]⟩ v36 shapeCasts_S1x5_S1x5) broadcasts_S1x5_S4000x5))
        (broadcast ⟨2, ![4000, 5]⟩ (Scalar.ofBits .f32 0x00000000#32 : Ideal .f32)) = _
  rw [first_eq]
  exact clamped_dense_eq (m := 4000) _ v32 v36 broadcasts_S1x5_S4000x5 shapeCasts_S1x5_S1x5

end Cert.KernelIdeal.NodeUpdateBlock

end
-- ==== Proof.NodeUpdateArray.lean ====
/-
  Region 2's result array: the updated nodes as one function of the arrays the region finds.

  The grid has 25 points. At point t the body sees rows 4000·t … 4000·t + 3999 of the node embeddings and of the two
  aggregates, and the whole of the five small arrays (the global row, the two layers' matrices and bias rows); it
  writes back the same rows of the 100000×5 result. What it writes is the two-layer update of the rows it sees, which
  computes a row of its result from the same row of its row-indexed inputs; so the block written at t is block t of

      updated = reluRows (clamp0 (mix4 n sent recv g w1 b1)) w2 b2

  of the whole arrays. The 25 blocks tile the result (row r lies in block r / 4000), so after the region the result
  array is `updated`, whatever it held before.
-/
import proofs.«123845_j19026705121528_1_alg».proof.Proof.Gen.KernelIdeal.Frame
import proofs.«123845_j19026705121528_1_alg».proof.Proof.NodeUpdateBlock
import proofs.«123845_j19026705121528_1_alg».proof.Proof.RowLocal

set_option maxRecDepth 16384

noncomputable section

open scoped BigOperators

namespace Cert.KernelIdeal.NodeUpdateArray

open Cert.KernelIdeal Cert.KernelIdeal.Gen
open Idealize.ShloMosaic Idealize.ShloMosaic.TcCoe Idealize.SL.Sem
open Idealize.ShloMosaic.ValueIdx Cert.DenseRows Cert.ReluRows Cert.MixedLayer Cert.RowLocal
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: a window cut along the rows sits at block (t, 0), a window over a
    whole small array at block (0, 0). -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

/-- The two-layer node update of the whole arrays, as the region finds them. -/
def updated (c : Dev nD) : S100000x5.Idx → EReal :=
  reluRows (clamp0 (mix4 (n := 5) (N := 20) rfl
      (V c main_v1 : S100000x5.Idx → EReal) (V c main_v25 : S100000x5.Idx → EReal) (V c main_v28 : S100000x5.Idx → EReal) (V c main_v4 : S1x5.Idx → EReal)
      (V c main_arg15 : S20x5.Idx → EReal) (V c main_v29 : S1x5.Idx → EReal)))
    (V c main_arg17 : S5x5.Idx → EReal) (V c main_v30 : S1x5.Idx → EReal)

/-- What point t writes back is block t of `updated`. -/
theorem flushed_eq (c : Dev nD) (t : Fin cfg2.N) :
    (dat2 V c).flushed 8 t = ((cfg2.win 8).blk t).view.read (Elt Ideal) (updated V c) := by
  show (cfg2.win 8).cut (grid2.coords t) ((dat2 V c).after 8 t) = _
  rw [after2_8]
  unfold out2_8
  rw [View.canon_unit_zero hz]
  simp only [View.ld_unit_zero (S := S4000x5) hz, View.ld_unit_zero (S := S1x5) hz, View.ld_unit_zero (S := S20x5) hz, View.ld_unit_zero (S := S5x5) hz]
  rw [NodeUpdateBlock.stored_eq]
  obtain ⟨r0a, r0b, r1a, r1b, r2a, r2b, r3a, r3b, r4a, r4b, r5a, r5b, r6a, r6b, r7a, r7b, r8a, r8b⟩ := idx_facts t
  have ht : t.val < 25 := lt_of_lt_of_eq t.isLt N_2
  -- a window over a whole small array: its one block is the array
  have hW3 : iblk2 V c 3 t = V c main_v4 := by
    funext y
    show V c main_v4 (((cfg2.win 3).blk t).view.emb y) = V c main_v4 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 5 + 1 * (y 1).val = (y 1).val; omega
  have hW4 : iblk2 V c 4 t = V c main_arg15 := by
    funext y
    show V c main_arg15 (((cfg2.win 4).blk t).view.emb y) = V c main_arg15 y
    refine congrArg _ (funext fun a => Fin.ext ?_)
    match a with
    | ⟨0, _⟩ => show win2_4.index t (0 : Fin 2) * 20 + 1 * (y 0).val = (y 0).val; omega
    | ⟨1, _⟩ => show win2_4.index t (1 : Fin 2) * 5 + 1 * (y 1).val = (y 1).val; omega
  have hW5 : iblk2 V c 5 t = V c main_v29 := by
    funext y
    show V c main_v29 (((cfg2.win 5).blk t).view.emb y) = V c main_v29 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 5 + 1 * (y 1).val = (y 1).val; omega
  have hW6 : iblk2 V c 6 t = V c main_arg17 := by
    funext y
    show V c main_arg17 (((cfg2.win 6).blk t).view.emb y) = V c main_arg17 y
    refine congrArg _ (funext fun a => Fin.ext ?_)
    match a with
    | ⟨0, _⟩ => show win2_6.index t (0 : Fin 2) * 5 + 1 * (y 0).val = (y 0).val; omega
    | ⟨1, _⟩ => show win2_6.index t (1 : Fin 2) * 5 + 1 * (y 1).val = (y 1).val; omega
  have hW7 : iblk2 V c 7 t = V c main_v30 := by
    funext y
    show V c main_v30 (((cfg2.win 7).blk t).view.emb y) = V c main_v30 y
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 5 + 1 * (y 1).val = (y 1).val; omega
  -- a window cut along the rows: row p of its block is row 4000·t + p of its array
  have hX0 : ∀ (p : Fin 4000) (k : Fin 5), iblk2 V c 0 t (ix2 p k)
      = V c main_v1 (ix2 (⟨t.val * 4000 + p.val, by have := p.isLt; omega⟩ : Fin 100000) k) := fun p k => by
    show V c main_v1 (((cfg2.win 0).blk t).view.emb (ix2 p k)) = V c main_v1 (ix2 (⟨t.val * 4000 + p.val, _⟩ : Fin 100000) k)
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 5 + 1 * k.val = k.val; omega
  have hX1 : ∀ (p : Fin 4000) (k : Fin 5), iblk2 V c 1 t (ix2 p k)
      = V c main_v25 (ix2 (⟨t.val * 4000 + p.val, by have := p.isLt; omega⟩ : Fin 100000) k) := fun p k => by
    show V c main_v25 (((cfg2.win 1).blk t).view.emb (ix2 p k)) = V c main_v25 (ix2 (⟨t.val * 4000 + p.val, _⟩ : Fin 100000) k)
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 5 + 1 * k.val = k.val; omega
  have hX2 : ∀ (p : Fin 4000) (k : Fin 5), iblk2 V c 2 t (ix2 p k)
      = V c main_v28 (ix2 (⟨t.val * 4000 + p.val, by have := p.isLt; omega⟩ : Fin 100000) k) := fun p k => by
    show V c main_v28 (((cfg2.win 2).blk t).view.emb (ix2 p k)) = V c main_v28 (ix2 (⟨t.val * 4000 + p.val, _⟩ : Fin 100000) k)
    refine congrArg _ (funext fun a => Fin.ext ?_)
    match a with
    | ⟨0, _⟩ => show win2_2.index t (0 : Fin 2) * 4000 + 1 * p.val = t.val * 4000 + p.val; omega
    | ⟨1, _⟩ => show win2_2.index t (1 : Fin 2) * 5 + 1 * k.val = k.val; omega
  funext j
  have hj0 : (j 0).val < 4000 := (j 0).isLt
  have hJ : ((cfg2.win 8).blk t).view.emb j
      = ix2 (⟨t.val * 4000 + (j 0).val, by omega⟩ : Fin 100000) (j 1) :=
    funext fun a => Fin.ext (by
      match a with
      | ⟨0, _⟩ => show win2_8.index t (0 : Fin 2) * 4000 + 1 * (j 0).val = t.val * 4000 + (j 0).val; omega
      | ⟨1, _⟩ => show win2_8.index t (1 : Fin 2) * 5 + 1 * (j 1).val = (j 1).val; omega)
  show (reluRows (clamp0 (mix4 (n := 5) (N := 20) rfl (iblk2 V c 0 t) (iblk2 V c 1 t) (iblk2 V c 2 t) (iblk2 V c 3 t) (iblk2 V c 4 t) (iblk2 V c 5 t))) (iblk2 V c 6 t) (iblk2 V c 7 t)) j = updated V c (((cfg2.win 8).blk t).view.emb j)
  refine (congrArg (reluRows (clamp0 (mix4 (n := 5) (N := 20) rfl (iblk2 V c 0 t) (iblk2 V c 1 t) (iblk2 V c 2 t) (iblk2 V c 3 t) (iblk2 V c 4 t) (iblk2 V c 5 t))) (iblk2 V c 6 t) (iblk2 V c 7 t)) (eq_ix2 j)).trans ?_
  rw [hJ, hW3, hW4, hW5, hW6, hW7]
  exact layers_rows rfl (V c main_v1) (V c main_v25) (V c main_v28) (iblk2 V c 0 t) (iblk2 V c 1 t) (iblk2 V c 2 t)
    (V c main_v4) (V c main_arg15) (V c main_v29) (V c main_arg17) (V c main_v30)
    (fun p => (⟨t.val * 4000 + p.val, by have := p.isLt; omega⟩ : Fin 100000)) hX0 hX1 hX2 (j 0) (j 1)

/-- An index of the result is in point t's block iff each coordinate is in the block's range on its axis. -/
theorem mem_blk (t : Fin cfg2.N) (i : S100000x5.Idx) :
    i ∈ ((cfg2.win 8).blk t).view.set ↔ ∀ a : Fin 2, win2_8.index t a * S4000x5.size a ≤ (i a).val ∧ (i a).val < win2_8.index t a * S4000x5.size a + S4000x5.size a := by
  show i ∈ ((View.whole main_v31).slice (win2_8.rect t)).set ↔ _
  rw [View.set_slice_whole, Rect.mem_set_unit]
  exact Iff.rfl

/-- Every index of the result lies in some point's block: row r in block r / 4000. -/
theorem cover (i : S100000x5.Idx) : ∃ t : Fin cfg2.N, (cfg2.win 8).flush t = true ∧ i ∈ ((cfg2.win 8).blk t).view.set := by
  have hi0 : (i 0).val < 100000 := (i 0).isLt
  have hi1 : (i 1).val < 5 := (i 1).isLt
  have ht : (i 0).val / 4000 < cfg2.N := lt_of_lt_of_eq (by omega : (i 0).val / 4000 < 25) N_2.symm
  refine ⟨⟨(i 0).val / 4000, ht⟩, flush2_8 _, ?_⟩
  rw [mem_blk]
  have hf := idx_facts ⟨(i 0).val / 4000, ht⟩
  have ea : win2_8.index ⟨(i 0).val / 4000, ht⟩ (0 : Fin 2) = (i 0).val / 4000 := hf.2.2.2.2.2.2.2.2.2.2.2.2.2.2.2.2.1
  have eb : win2_8.index ⟨(i 0).val / 4000, ht⟩ (1 : Fin 2) = 0 := hf.2.2.2.2.2.2.2.2.2.2.2.2.2.2.2.2.2
  intro a
  match a with
  | ⟨0, _⟩ =>
    show win2_8.index ⟨(i 0).val / 4000, ht⟩ (0 : Fin 2) * 4000 ≤ (i 0).val ∧ (i 0).val < win2_8.index ⟨(i 0).val / 4000, ht⟩ (0 : Fin 2) * 4000 + 4000
    rw [ea]; omega
  | ⟨1, _⟩ =>
    show win2_8.index ⟨(i 0).val / 4000, ht⟩ (1 : Fin 2) * 5 ≤ (i 1).val ∧ (i 1).val < win2_8.index ⟨(i 0).val / 4000, ht⟩ (1 : Fin 2) * 5 + 5
    rw [eb]; omega

/-- After the region the result array is `updated` of the arrays the region found. -/
theorem array_eq (c : Dev nD) : (dat2 V c).arrAt 8 cfg2.N = updated V c :=
  (dat2 V c).arrAt_eq_of_cover 8 (updated V c) (fun t _ => flushed_eq V c t) (cover)

end Cert.KernelIdeal.NodeUpdateArray

end
-- ==== Proof.JoinedLayer.lean ====
/-
  A dense layer whose input is four pieces laid side by side, and a row repeated down the rows.

  `repeated_row`: a one-row matrix g repeated down M rows by the host's broadcast reads, at (a, c), g at (0, c).

  `joined_dense_eq`: for three M×n matrices A, B, C and a fourth piece G that is a one-row matrix g repeated down
  the rows, the dense layer of the M×N join [A | B | C | G] (N = n + n + n + n) against a weight matrix W with bias
  row r is `mix4 A B C g W r`: the one contraction over the N joined columns is the four contractions against the
  four row-blocks of W, added from the left, and the bias row is added last on both sides.
-/
import Idealize.ShloMosaic.PureOps.Ideal.Laws
import Idealize.ShloMosaic.Lib.ValueIdx
import Idealize.ShloMosaic.Lib.ValueLayout
import Idealize.ShloMosaic.Lib.Pipeline.Value
import proofs.«123845_j19026705121528_1_alg».proof.Proof.LibDenseRows
import proofs.«123845_j19026705121528_1_alg».proof.Proof.MixedLayer

noncomputable section

open scoped BigOperators

namespace Cert.JoinedLayer

open Idealize.ShloMosaic Idealize.ShloMosaic.ValueIdx Cert.DenseRows Cert.MixedLayer

variable {α : Type}

/-- A one-row matrix repeated down M rows, read at (a, c), is the row at (0, c). -/
theorem repeated_row {M n : ℕ} (g : (⟨2, ![1, n]⟩ : Shape).Idx → α)
    (h : (⟨2, ![1, n]⟩ : Shape).BroadcastsInDim ⟨2, ![M, n]⟩ ![0, 1]) (a : Fin M) (c : Fin n) :
    broadcastInDim ⟨2, ![M, n]⟩ ![0, 1] h g (ix2 a c) = g (ix2 (0 : Fin 1) c) := by
  have hc : c.val = if n = 1 then 0 else c.val := by
    split
    · have := c.isLt; omega
    · rfl
  exact broadcastInDim_apply _ h g (ix2 a c) (ix2 (0 : Fin 1) c) fun ax =>
    match ax with
    | ⟨0, _⟩ => rfl
    | ⟨1, _⟩ => hc

/-- The dense layer of the join [A | B | C | G], G being g repeated down the rows, is the mix of A, B, C and g. -/
theorem joined_dense_eq {M n N k : ℕ} (hN : n + n + n + n = N)
    (A B C G : (⟨2, ![M, n]⟩ : Shape).Idx → EReal) (g : (⟨2, ![1, n]⟩ : Shape).Idx → EReal)
    (hG : ∀ (a : Fin M) (c : Fin n), G (ix2 a c) = g (ix2 (0 : Fin 1) c))
    (W : (⟨2, ![N, k]⟩ : Shape).Idx → EReal) (r : (⟨2, ![1, k]⟩ : Shape).Idx → EReal)
    (H : Shape.Concatenates [(⟨2, ![M, n]⟩ : Shape), ⟨2, ![M, n]⟩, ⟨2, ![M, n]⟩, ⟨2, ![M, n]⟩] ⟨2, ![M, N]⟩ (1 : Fin 2)) :
    denseRows (concatenate ⟨2, ![M, N]⟩ (1 : Fin 2)
        [⟨⟨2, ![M, n]⟩, A⟩, ⟨⟨2, ![M, n]⟩, B⟩, ⟨⟨2, ![M, n]⟩, C⟩, ⟨⟨2, ![M, n]⟩, G⟩] H) W r
      = mix4 hN A B C g W r := by
  funext i
  obtain ⟨a, q, rfl⟩ : ∃ (a : Fin M) (q : Fin k), i = ix2 a q := ⟨i 0, i 1, eq_ix2 i⟩
  rw [denseRows_apply, mix4_apply, joined_contraction hN A B C G g hG W H a q]

end Cert.JoinedLayer

end
-- ==== Proof.ReferenceStages.lean ====
/-
  The reference's stages as the same layer functions.

  The reference computes on whole arrays with host operations. Read as functions on the extended reals:
  * the node and edge embeddings (a product, plus a length-5 bias broadcast to a row and then down the rows) are
    dense layers, the bias laid out as a row (`nodes_eq`, `embedded_eq`);
  * the edge update (join of the embedded edges, the two gathered arrays and the global row repeated down the rows;
    product with the 20×5 matrix; bias; maximum with zero; product with the 5×5 matrix; bias; maximum with zero) is
    reluRows (clamp0 (mix4 …)) of those four inputs (`edges_eq`): the contraction over the 20 joined columns is the
    four contractions against the four row-blocks of the matrix, added from the left;
  * the node update is the same function of the node embeddings, the two aggregates and the global row
    (`updated_eq`).
  The gathered arrays, the aggregates and the global row are left as the reference's own stages: the kernel computes
  them with the same host operations.
-/
import proofs.«123845_j19026705121528_1_alg».proof.Proof.Gen.ReferenceIdeal.Read
import proofs.«123845_j19026705121528_1_alg».proof.Proof.LibReluRows
import proofs.«123845_j19026705121528_1_alg».proof.Proof.JoinedLayer

noncomputable section

open scoped BigOperators

namespace Cert.ReferenceIdeal.Stages

open Cert.ReferenceIdeal Cert.ReferenceIdeal.Gen Cert.ReferenceIdeal.Read
open Idealize.ShloMosaic Idealize.ShloMosaic.ValueIdx Cert.DenseRows Cert.ReluRows Cert.MixedLayer Cert.JoinedLayer

variable (h : S5.ShapeCasts S1x5)

/-- The node embeddings are the dense layer of the node features, the bias as a row. -/
theorem nodes_eq (x0 : (⟨S100000x32, .f32⟩ : BufTy).Contents (Elt Ideal)) (x7 : (⟨S32x5, .f32⟩ : BufTy).Contents (Elt Ideal)) (x8 : (⟨S5, .f32⟩ : BufTy).Contents (Elt Ideal)) :
    val_main_v7 (F := Ideal) x0 x7 x8 = denseRows x0 x7 (shapeCast S1x5 x8 h) := by
  unfold val_main_v7 val_main_v4 val_main_v6 val_main_v5
  exact host_dense (m := 100000) (k := 32) (n := 5) x0 x7 x8 bcast_S5_S1x5_1 bcast_S1x5_S100000x5_0_1 h

/-- The embedded edges are the dense layer of the edge features, the bias as a row. -/
theorem embedded_eq (x1 : (⟨S3200000x32, .f32⟩ : BufTy).Contents (Elt Ideal)) (x5 : (⟨S32x5, .f32⟩ : BufTy).Contents (Elt Ideal))
    (x6 : (⟨S5, .f32⟩ : BufTy).Contents (Elt Ideal)) :
    val_main_v3 (F := Ideal) x1 x5 x6 = denseRows x1 x5 (shapeCast S1x5 x6 h) := by
  unfold val_main_v3 val_main_v0 val_main_v2 val_main_v1
  exact host_dense (m := 3200000) (k := 32) (n := 5) x1 x5 x6 bcast_S5_S1x5_1 bcast_S1x5_S3200000x5_0_1 h

/-- The edge update's first layer, before its maximum with zero: the mix of the four joined pieces. -/
theorem edge_mix_eq (x0 : (⟨S100000x32, .f32⟩ : BufTy).Contents (Elt Ideal)) (x1 : (⟨S3200000x32, .f32⟩ : BufTy).Contents (Elt Ideal)) (x2 : (⟨S1x32, .f32⟩ : BufTy).Contents (Elt Ideal)) (x3 x4 : (⟨S3200000, .i32⟩ : BufTy).Contents (Elt Ideal)) (x5 : (⟨S32x5, .f32⟩ : BufTy).Contents (Elt Ideal)) (x6 : (⟨S5, .f32⟩ : BufTy).Contents (Elt Ideal)) (x7 : (⟨S32x5, .f32⟩ : BufTy).Contents (Elt Ideal)) (x8 : (⟨S5, .f32⟩ : BufTy).Contents (Elt Ideal)) (x9 : (⟨S32x5, .f32⟩ : BufTy).Contents (Elt Ideal)) (x10 : (⟨S5, .f32⟩ : BufTy).Contents (Elt Ideal)) (x11 : (⟨S20x5, .f32⟩ : BufTy).Contents (Elt Ideal)) (x12 : (⟨S5, .f32⟩ : BufTy).Contents (Elt Ideal)) :
    val_main_v30 (F := Ideal) x0 x1 x2 x3 x4 x5 x6 x7 x8 x9 x10 x11 x12
      = mix4 (n := 5) (N := 20) rfl (val_main_v3 (F := Ideal) x1 x5 x6) (val_main_v18 (F := Ideal) x0 x3 x7 x8)
          (val_main_v25 (F := Ideal) x0 x4 x7 x8) (val_main_v10 (F := Ideal) x2 x9 x10) x11 (shapeCast S1x5 x12 h) := by
  unfold val_main_v30 val_main_v27 val_main_v29 val_main_v28 val_main_v26
  refine (host_dense (m := 3200000) (k := 20) (n := 5) _ x11 x12 bcast_S5_S1x5_1 bcast_S1x5_S3200000x5_0_1 h).trans ?_
  exact joined_dense_eq rfl _ _ _ (val_main_v11 (F := Ideal) x2 x9 x10) (val_main_v10 (F := Ideal) x2 x9 x10)
    (fun a c => by unfold val_main_v11; exact repeated_row _ _ a c) x11 _ _

/-- The updated edges. -/
theorem edges_eq (x0 : (⟨S100000x32, .f32⟩ : BufTy).Contents (Elt Ideal)) (x1 : (⟨S3200000x32, .f32⟩ : BufTy).Contents (Elt Ideal)) (x2 : (⟨S1x32, .f32⟩ : BufTy).Contents (Elt Ideal)) (x3 x4 : (⟨S3200000, .i32⟩ : BufTy).Contents (Elt Ideal)) (x5 : (⟨S32x5, .f32⟩ : BufTy).Contents (Elt Ideal)) (x6 : (⟨S5, .f32⟩ : BufTy).Contents (Elt Ideal)) (x7 : (⟨S32x5, .f32⟩ : BufTy).Contents (Elt Ideal)) (x8 : (⟨S5, .f32⟩ : BufTy).Contents (Elt Ideal)) (x9 : (⟨S32x5, .f32⟩ : BufTy).Contents (Elt Ideal)) (x10 : (⟨S5, .f32⟩ : BufTy).Contents (Elt Ideal)) (x11 : (⟨S20x5, .f32⟩ : BufTy).Contents (Elt Ideal)) (x12 : (⟨S5, .f32⟩ : BufTy).Contents (Elt Ideal)) (x13 : (⟨S5x5, .f32⟩ : BufTy).Contents (Elt Ideal)) (x14 : (⟨S5, .f32⟩ : BufTy).Contents (Elt Ideal)) :
    val_main_v36 (F := Ideal) x0 x1 x2 x3 x4 x5 x6 x7 x8 x9 x10 x11 x12 x13 x14
      = reluRows (clamp0 (mix4 (n := 5) (N := 20) rfl (val_main_v3 (F := Ideal) x1 x5 x6) (val_main_v18 (F := Ideal) x0 x3 x7 x8)
          (val_main_v25 (F := Ideal) x0 x4 x7 x8) (val_main_v10 (F := Ideal) x2 x9 x10) x11 (shapeCast S1x5 x12 h)))
          x13 (shapeCast S1x5 x14 h) := by
  have h2 : val_main_v31 (F := Ideal) x0 x1 x2 x3 x4 x5 x6 x7 x8 x9 x10 x11 x12
      = clamp0 (mix4 (n := 5) (N := 20) rfl (val_main_v3 (F := Ideal) x1 x5 x6) (val_main_v18 (F := Ideal) x0 x3 x7 x8)
          (val_main_v25 (F := Ideal) x0 x4 x7 x8) (val_main_v10 (F := Ideal) x2 x9 x10) x11 (shapeCast S1x5 x12 h)) := by
    unfold val_main_v31 val_main_call0_v0 val_main_call0_cst
    exact (host_clamp0 _ bcast_S_S3200000x5).trans (congrArg clamp0 (edge_mix_eq h x0 x1 x2 x3 x4 x5 x6 x7 x8 x9 x10 x11 x12))
  unfold val_main_v36 val_main_v35 val_main_v32 val_main_v34 val_main_v33 val_main_call1_v0 val_main_call1_cst
  refine (host_reluRows (m := 3200000) (k := 5) (n := 5) (val_main_v31 (F := Ideal) x0 x1 x2 x3 x4 x5 x6 x7 x8 x9 x10 x11 x12) x13 x14
    bcast_S5_S1x5_1 bcast_S1x5_S3200000x5_0_1 bcast_S_S3200000x5 h).trans ?_
  rw [h2]

/-- The updated edges again, the embedded edges written as the dense layer of the edge features. -/
theorem edges_eq' (x0 : (⟨S100000x32, .f32⟩ : BufTy).Contents (Elt Ideal)) (x1 : (⟨S3200000x32, .f32⟩ : BufTy).Contents (Elt Ideal)) (x2 : (⟨S1x32, .f32⟩ : BufTy).Contents (Elt Ideal)) (x3 x4 : (⟨S3200000, .i32⟩ : BufTy).Contents (Elt Ideal)) (x5 : (⟨S32x5, .f32⟩ : BufTy).Contents (Elt Ideal)) (x6 : (⟨S5, .f32⟩ : BufTy).Contents (Elt Ideal)) (x7 : (⟨S32x5, .f32⟩ : BufTy).Contents (Elt Ideal)) (x8 : (⟨S5, .f32⟩ : BufTy).Contents (Elt Ideal)) (x9 : (⟨S32x5, .f32⟩ : BufTy).Contents (Elt Ideal)) (x10 : (⟨S5, .f32⟩ : BufTy).Contents (Elt Ideal)) (x11 : (⟨S20x5, .f32⟩ : BufTy).Contents (Elt Ideal)) (x12 : (⟨S5, .f32⟩ : BufTy).Contents (Elt Ideal)) (x13 : (⟨S5x5, .f32⟩ : BufTy).Contents (Elt Ideal)) (x14 : (⟨S5, .f32⟩ : BufTy).Contents (Elt Ideal)) :
    val_main_v36 (F := Ideal) x0 x1 x2 x3 x4 x5 x6 x7 x8 x9 x10 x11 x12 x13 x14
      = reluRows (clamp0 (mix4 (n := 5) (N := 20) rfl (denseRows x1 x5 (shapeCast S1x5 x6 h)) (val_main_v18 (F := Ideal) x0 x3 x7 x8)
          (val_main_v25 (F := Ideal) x0 x4 x7 x8) (val_main_v10 (F := Ideal) x2 x9 x10) x11 (shapeCast S1x5 x12 h)))
          x13 (shapeCast S1x5 x14 h) := by
  rw [edges_eq h, embedded_eq h]

/-- The node update's first layer, before its maximum with zero: the mix of the four joined pieces. -/
theorem node_mix_eq (x0 : (⟨S100000x32, .f32⟩ : BufTy).Contents (Elt Ideal)) (x1 : (⟨S3200000x32, .f32⟩ : BufTy).Contents (Elt Ideal)) (x2 : (⟨S1x32, .f32⟩ : BufTy).Contents (Elt Ideal)) (x3 x4 : (⟨S3200000, .i32⟩ : BufTy).Contents (Elt Ideal)) (x5 : (⟨S32x5, .f32⟩ : BufTy).Contents (Elt Ideal)) (x6 : (⟨S5, .f32⟩ : BufTy).Contents (Elt Ideal)) (x7 : (⟨S32x5, .f32⟩ : BufTy).Contents (Elt Ideal)) (x8 : (⟨S5, .f32⟩ : BufTy).Contents (Elt Ideal)) (x9 : (⟨S32x5, .f32⟩ : BufTy).Contents (Elt Ideal)) (x10 : (⟨S5, .f32⟩ : BufTy).Contents (Elt Ideal)) (x11 : (⟨S20x5, .f32⟩ : BufTy).Contents (Elt Ideal)) (x12 : (⟨S5, .f32⟩ : BufTy).Contents (Elt Ideal)) (x13 : (⟨S5x5, .f32⟩ : BufTy).Contents (Elt Ideal)) (x14 : (⟨S5, .f32⟩ : BufTy).Contents (Elt Ideal)) (x15 : (⟨S20x5, .f32⟩ : BufTy).Contents (Elt Ideal)) (x16 : (⟨S5, .f32⟩ : BufTy).Contents (Elt Ideal)) :
    val_main_v48 (F := Ideal) x0 x1 x2 x3 x4 x5 x6 x7 x8 x9 x10 x11 x12 x13 x14 x15 x16
      = mix4 (n := 5) (N := 20) rfl (val_main_v7 (F := Ideal) x0 x7 x8) (val_main_v39 (F := Ideal) x0 x1 x2 x3 x4 x5 x6 x7 x8 x9 x10 x11 x12 x13 x14)
          (val_main_v42 (F := Ideal) x0 x1 x2 x3 x4 x5 x6 x7 x8 x9 x10 x11 x12 x13 x14) (val_main_v10 (F := Ideal) x2 x9 x10) x15 (shapeCast S1x5 x16 h) := by
  unfold val_main_v48 val_main_v45 val_main_v47 val_main_v46 val_main_v44
  refine (host_dense (m := 100000) (k := 20) (n := 5) _ x15 x16 bcast_S5_S1x5_1 bcast_S1x5_S100000x5_0_1 h).trans ?_
  exact joined_dense_eq rfl _ _ _ (val_main_v43 (F := Ideal) x2 x9 x10) (val_main_v10 (F := Ideal) x2 x9 x10)
    (fun a c => by unfold val_main_v43; exact repeated_row _ _ a c) x15 _ _

/-- The updated nodes: the reference's result. -/
theorem updated_eq (x0 : (⟨S100000x32, .f32⟩ : BufTy).Contents (Elt Ideal)) (x1 : (⟨S3200000x32, .f32⟩ : BufTy).Contents (Elt Ideal)) (x2 : (⟨S1x32, .f32⟩ : BufTy).Contents (Elt Ideal)) (x3 x4 : (⟨S3200000, .i32⟩ : BufTy).Contents (Elt Ideal)) (x5 : (⟨S32x5, .f32⟩ : BufTy).Contents (Elt Ideal)) (x6 : (⟨S5, .f32⟩ : BufTy).Contents (Elt Ideal)) (x7 : (⟨S32x5, .f32⟩ : BufTy).Contents (Elt Ideal)) (x8 : (⟨S5, .f32⟩ : BufTy).Contents (Elt Ideal)) (x9 : (⟨S32x5, .f32⟩ : BufTy).Contents (Elt Ideal)) (x10 : (⟨S5, .f32⟩ : BufTy).Contents (Elt Ideal)) (x11 : (⟨S20x5, .f32⟩ : BufTy).Contents (Elt Ideal)) (x12 : (⟨S5, .f32⟩ : BufTy).Contents (Elt Ideal)) (x13 : (⟨S5x5, .f32⟩ : BufTy).Contents (Elt Ideal)) (x14 : (⟨S5, .f32⟩ : BufTy).Contents (Elt Ideal)) (x15 : (⟨S20x5, .f32⟩ : BufTy).Contents (Elt Ideal)) (x16 : (⟨S5, .f32⟩ : BufTy).Contents (Elt Ideal)) (x17 : (⟨S5x5, .f32⟩ : BufTy).Contents (Elt Ideal)) (x18 : (⟨S5, .f32⟩ : BufTy).Contents (Elt Ideal)) :
    val_main_v54 (F := Ideal) x0 x1 x2 x3 x4 x5 x6 x7 x8 x9 x10 x11 x12 x13 x14 x15 x16 x17 x18
      = reluRows (clamp0 (mix4 (n := 5) (N := 20) rfl (val_main_v7 (F := Ideal) x0 x7 x8) (val_main_v39 (F := Ideal) x0 x1 x2 x3 x4 x5 x6 x7 x8 x9 x10 x11 x12 x13 x14)
          (val_main_v42 (F := Ideal) x0 x1 x2 x3 x4 x5 x6 x7 x8 x9 x10 x11 x12 x13 x14) (val_main_v10 (F := Ideal) x2 x9 x10) x15 (shapeCast S1x5 x16 h)))
          x17 (shapeCast S1x5 x18 h) := by
  have h2 : val_main_v49 (F := Ideal) x0 x1 x2 x3 x4 x5 x6 x7 x8 x9 x10 x11 x12 x13 x14 x15 x16
      = clamp0 (mix4 (n := 5) (N := 20) rfl (val_main_v7 (F := Ideal) x0 x7 x8) (val_main_v39 (F := Ideal) x0 x1 x2 x3 x4 x5 x6 x7 x8 x9 x10 x11 x12 x13 x14)
          (val_main_v42 (F := Ideal) x0 x1 x2 x3 x4 x5 x6 x7 x8 x9 x10 x11 x12 x13 x14) (val_main_v10 (F := Ideal) x2 x9 x10) x15 (shapeCast S1x5 x16 h)) := by
    unfold val_main_v49 val_main_call2_v0 val_main_call2_cst
    exact (host_clamp0 _ bcast_S_S100000x5).trans (congrArg clamp0 (node_mix_eq h x0 x1 x2 x3 x4 x5 x6 x7 x8 x9 x10 x11 x12 x13 x14 x15 x16))
  unfold val_main_v54 val_main_v53 val_main_v50 val_main_v52 val_main_v51 val_main_call3_v0 val_main_call3_cst
  refine (host_reluRows (m := 100000) (k := 5) (n := 5) (val_main_v49 (F := Ideal) x0 x1 x2 x3 x4 x5 x6 x7 x8 x9 x10 x11 x12 x13 x14 x15 x16) x17 x18
    bcast_S5_S1x5_1 bcast_S1x5_S100000x5_0_1 bcast_S_S100000x5 h).trans ?_
  rw [h2]

end Cert.ReferenceIdeal.Stages

end
-- ==== Proof.KernelStages.lean ====
/-
  The idealized kernel's buffers at each boundary of @main, read back to the launch memory.

  @main is: a stretch of host operations, region 0, a second stretch, region 1, a third stretch, region 2. A buffer's
  contents at a boundary are found by walking back: a stretch that does not write the buffer and a region that does not
  own it leave it as it was; a region leaves each input array as it found it; a stretch that writes the buffer leaves
  its operations' value of the contents before the stretch; a region leaves its result array at the layer function of
  the arrays it found (the three array theorems). Walked back to the launch memory, each stage is the reference's stage
  of the same launch arrays:
    region 0's result      = the reference's node embeddings;
    the global row, the two gathered arrays = the reference's (the same host operations of equal operands);
    region 1's result      = the reference's updated edges;
    the two aggregates     = the reference's (the same scatter-adds of equal operands);
    region 2's result      = the reference's updated nodes, its result.
-/
import proofs.«123845_j19026705121528_1_alg».proof.Proof.Gen.KernelIdeal.Frame
import proofs.«123845_j19026705121528_1_alg».proof.Proof.NodeEmbedArray
import proofs.«123845_j19026705121528_1_alg».proof.Proof.EdgeArray
import proofs.«123845_j19026705121528_1_alg».proof.Proof.NodeUpdateArray
import proofs.«123845_j19026705121528_1_alg».proof.Proof.ReferenceStages
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx Cert.DenseRows Cert.ReluRows Cert.MixedLayer

variable (m : (ℓ : Loc nD τ sig) → Buf (Elt Ideal) ℓ) (ρ : Dev nD → PrngReg) (c : Dev nD)

/-! ## Launch arrays are untouched up to each boundary where they are read -/

theorem keep1_arg0 : W1 m ρ c (Proc.devRef .tc main_arg0) = (m ((c : Thread nD τ).loc main_arg0)) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg0)) := rfl

theorem keep1_arg7 : W1 m ρ c (Proc.devRef .tc main_arg7) = (m ((c : Thread nD τ).loc main_arg7)) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg7)) := rfl

theorem keep2_arg2 : W2 m ρ c (Proc.devRef .tc main_arg2) = (m ((c : Thread nD τ).loc main_arg2)) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg2)) := rfl

theorem keep2_arg9 : W2 m ρ c (Proc.devRef .tc main_arg9) = (m ((c : Thread nD τ).loc main_arg9)) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg9)) := rfl

theorem keep2_arg10 : W2 m ρ c (Proc.devRef .tc main_arg10) = (m ((c : Thread nD τ).loc main_arg10)) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg10)) := rfl

theorem keep2_arg3 : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg3)) := rfl

theorem keep2_arg4 : W2 m ρ c (Proc.devRef .tc main_arg4) = (m ((c : Thread nD τ).loc main_arg4)) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg4)) := rfl

theorem keep2_arg6 : W2 m ρ c (Proc.devRef .tc main_arg6) = (m ((c : Thread nD τ).loc main_arg6)) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg6)) := rfl

theorem keep2_arg12 : W2 m ρ c (Proc.devRef .tc main_arg12) = (m ((c : Thread nD τ).loc main_arg12)) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg12)) := rfl

theorem keep2_arg14 : W2 m ρ c (Proc.devRef .tc main_arg14) = (m ((c : Thread nD τ).loc main_arg14)) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg14)) := rfl

theorem keep3_arg1 : W3 m ρ c (Proc.devRef .tc main_arg1) = (m ((c : Thread nD τ).loc main_arg1)) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg1)) := rfl

theorem keep3_arg5 : W3 m ρ c (Proc.devRef .tc main_arg5) = (m ((c : Thread nD τ).loc main_arg5)) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg5)) := rfl

theorem keep3_arg11 : W3 m ρ c (Proc.devRef .tc main_arg11) = (m ((c : Thread nD τ).loc main_arg11)) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg11)) := rfl

theorem keep3_arg13 : W3 m ρ c (Proc.devRef .tc main_arg13) = (m ((c : Thread nD τ).loc main_arg13)) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg13)) := rfl

theorem keep4_arg3 : W4 m ρ c (Proc.devRef .tc main_arg3) = (m ((c : Thread nD τ).loc main_arg3)) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg3)) := rfl

theorem keep4_arg4 : W4 m ρ c (Proc.devRef .tc main_arg4) = (m ((c : Thread nD τ).loc main_arg4)) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg4)) := rfl

theorem keep4_arg16 : W4 m ρ c (Proc.devRef .tc main_arg16) = (m ((c : Thread nD τ).loc main_arg16)) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg16)) := rfl

theorem keep4_arg18 : W4 m ρ c (Proc.devRef .tc main_arg18) = (m ((c : Thread nD τ).loc main_arg18)) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg18)) := rfl

theorem keep5_arg15 : W5 m ρ c (Proc.devRef .tc main_arg15) = (m ((c : Thread nD τ).loc main_arg15)) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg15)) := rfl

theorem keep5_arg17 : W5 m ρ c (Proc.devRef .tc main_arg17) = (m ((c : Thread nD τ).loc main_arg17)) :=
  calc W5 m ρ c (Proc.devRef .tc main_arg17)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg17)) := rfl

/-! ## Region 0: the node embeddings -/

theorem V1_arg0 : V1 m ρ c main_arg0 = (m ((c : Thread nD τ).loc main_arg0)) := keep1_arg0 m ρ c
theorem V1_arg7 : V1 m ρ c main_arg7 = (m ((c : Thread nD τ).loc main_arg7)) := keep1_arg7 m ρ c

/-- The length-5 bias `main_arg8` laid out as a row. -/
theorem V1_v0 : V1 m ρ c main_v0 = shapeCast S1x5 (m ((c : Thread nD τ).loc main_arg8)) shapeCasts_S5_S1x5 := by
  show StableHlo.after hostOps0 (W0 m ρ c) (Proc.devRef .tc main_v0) = _
  after_results
  rfl

/-- Region 0 leaves the reference's node embeddings in its result array. -/
theorem nodes_eq : W2 m ρ c (Proc.devRef .tc main_v1) = Cert.ReferenceIdeal.Read.val_main_v7 (F := Ideal) (m ((c : Thread nD τ).loc main_arg0)) (m ((c : Thread nD τ).loc main_arg7)) (m ((c : Thread nD τ).loc main_arg8)) :=
  (W2_arr m ρ c 3).trans ((NodeEmbedArray.array_eq (V1 m ρ) c).trans (by
    unfold NodeEmbedArray.nodes
    rw [V1_arg0 m ρ c, V1_arg7 m ρ c, V1_v0 m ρ c]
    exact (Cert.ReferenceIdeal.Stages.nodes_eq shapeCasts_S5_S1x5 _ _ _).symm))

/-! ## Region 1: the updated edges -/

theorem V3_arg1 : V3 m ρ c main_arg1 = (m ((c : Thread nD τ).loc main_arg1)) := keep3_arg1 m ρ c
theorem V3_arg5 : V3 m ρ c main_arg5 = (m ((c : Thread nD τ).loc main_arg5)) := keep3_arg5 m ρ c
theorem V3_arg11 : V3 m ρ c main_arg11 = (m ((c : Thread nD τ).loc main_arg11)) := keep3_arg11 m ρ c
theorem V3_arg13 : V3 m ρ c main_arg13 = (m ((c : Thread nD τ).loc main_arg13)) := keep3_arg13 m ρ c

/-- The global row, computed by the second stretch from launch arrays. -/
theorem V3_v4 : V3 m ρ c main_v4 = Cert.ReferenceIdeal.Read.val_main_v10 (F := Ideal) (m ((c : Thread nD τ).loc main_arg2)) (m ((c : Thread nD τ).loc main_arg9)) (m ((c : Thread nD τ).loc main_arg10)) := by
  show StableHlo.after hostOps1 (W2 m ρ c) (Proc.devRef .tc main_v4) = _
  after_results
  rw [keep2_arg2 m ρ c, keep2_arg9 m ρ c, keep2_arg10 m ρ c]
  rfl

/-- The node embeddings gathered at the senders. -/
theorem V3_v11 : V3 m ρ c main_v11 = Cert.ReferenceIdeal.Read.val_main_v18 (F := Ideal) (m ((c : Thread nD τ).loc main_arg0)) (m ((c : Thread nD τ).loc main_arg3)) (m ((c : Thread nD τ).loc main_arg7)) (m ((c : Thread nD τ).loc main_arg8)) := by
  show StableHlo.after hostOps1 (W2 m ρ c) (Proc.devRef .tc main_v11) = _
  after_results
  rw [nodes_eq m ρ c, keep2_arg3 m ρ c]
  rfl

-- the receivers' gather sits on the longest chain of the second stretch: nine results, each found by walking its 24 operations
set_option maxHeartbeats 1600000 in
/-- The node embeddings gathered at the receivers. -/
theorem V3_v18 : V3 m ρ c main_v18 = Cert.ReferenceIdeal.Read.val_main_v25 (F := Ideal) (m ((c : Thread nD τ).loc main_arg0)) (m ((c : Thread nD τ).loc main_arg4)) (m ((c : Thread nD τ).loc main_arg7)) (m ((c : Thread nD τ).loc main_arg8)) := by
  show StableHlo.after hostOps1 (W2 m ρ c) (Proc.devRef .tc main_v18) = _
  after_results
  rw [nodes_eq m ρ c, keep2_arg4 m ρ c]
  rfl

/-- The length-5 bias `main_arg6` laid out as a row. -/
theorem V3_v19 : V3 m ρ c main_v19 = shapeCast S1x5 (m ((c : Thread nD τ).loc main_arg6)) shapeCasts_S5_S1x5 := by
  show StableHlo.after hostOps1 (W2 m ρ c) (Proc.devRef .tc main_v19) = _
  after_results
  simp only [keep2_arg6 m ρ c]
  rfl

/-- The length-5 bias `main_arg12` laid out as a row. -/
theorem V3_v20 : V3 m ρ c main_v20 = shapeCast S1x5 (m ((c : Thread nD τ).loc main_arg12)) shapeCasts_S5_S1x5 := by
  show StableHlo.after hostOps1 (W2 m ρ c) (Proc.devRef .tc main_v20) = _
  after_results
  simp only [keep2_arg12 m ρ c]
  rfl

/-- The length-5 bias `main_arg14` laid out as a row. -/
theorem V3_v21 : V3 m ρ c main_v21 = shapeCast S1x5 (m ((c : Thread nD τ).loc main_arg14)) shapeCasts_S5_S1x5 := by
  show StableHlo.after hostOps1 (W2 m ρ c) (Proc.devRef .tc main_v21) = _
  after_results
  simp only [keep2_arg14 m ρ c]
  rfl

/-- Region 1 leaves the reference's updated edges in its result array. -/
theorem edges_eq : W4 m ρ c (Proc.devRef .tc main_v22) = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W4_arr m ρ c 10).trans ((EdgeArray.array_eq (V3 m ρ) c).trans (by
    unfold EdgeArray.edges
    rw [V3_arg1 m ρ c, V3_arg5 m ρ c, V3_v19 m ρ c, V3_v11 m ρ c, V3_v18 m ρ c, V3_v4 m ρ c, V3_arg11 m ρ c, V3_v20 m ρ c,
      V3_arg13 m ρ c, V3_v21 m ρ c]
    exact (Cert.ReferenceIdeal.Stages.edges_eq' shapeCasts_S5_S1x5 _ _ _ _ _ _ _ _ _ _ _ _ _ _ _).symm))

/-! ## Region 2: the updated nodes -/

theorem V5_arg15 : V5 m ρ c main_arg15 = (m ((c : Thread nD τ).loc main_arg15)) := keep5_arg15 m ρ c
theorem V5_arg17 : V5 m ρ c main_arg17 = (m ((c : Thread nD τ).loc main_arg17)) := keep5_arg17 m ρ c

/-- The node embeddings are still in place when region 2 reads them. -/
theorem V5_v1 : V5 m ρ c main_v1 = Cert.ReferenceIdeal.Read.val_main_v7 (F := Ideal) (m ((c : Thread nD τ).loc main_arg0)) (m ((c : Thread nD τ).loc main_arg7)) (m ((c : Thread nD τ).loc main_arg8)) :=
  calc W5 m ρ c (Proc.devRef .tc main_v1)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := nodes_eq m ρ c

/-- So is the global row: region 1 read it and left it. -/
theorem V5_v4 : V5 m ρ c main_v4 = Cert.ReferenceIdeal.Read.val_main_v10 (F := Ideal) (m ((c : Thread nD τ).loc main_arg2)) (m ((c : Thread nD τ).loc main_arg9)) (m ((c : Thread nD τ).loc main_arg10)) :=
  calc W5 m ρ c (Proc.devRef .tc main_v4)
    _ = W4 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4) := (W4_arr m ρ c 3).trans (((dat1 (V3 m ρ) c).arrAt_in 3 rfl _).trans (A_eq1 (V3 m ρ) c 3))
    _ = _ := V3_v4 m ρ c

/-- The updated edges summed at the senders. -/
theorem V5_v25 : V5 m ρ c main_v25 = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps2 (W4 m ρ c) (Proc.devRef .tc main_v25) = _
  after_results
  rw [edges_eq m ρ c, keep4_arg3 m ρ c]
  rfl

/-- The updated edges summed at the receivers. -/
theorem V5_v28 : V5 m ρ c main_v28 = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps2 (W4 m ρ c) (Proc.devRef .tc main_v28) = _
  after_results
  rw [edges_eq m ρ c, keep4_arg4 m ρ c]
  rfl

/-- The length-5 bias `main_arg16` laid out as a row. -/
theorem V5_v29 : V5 m ρ c main_v29 = shapeCast S1x5 (m ((c : Thread nD τ).loc main_arg16)) shapeCasts_S5_S1x5 := by
  show StableHlo.after hostOps2 (W4 m ρ c) (Proc.devRef .tc main_v29) = _
  after_results
  simp only [keep4_arg16 m ρ c]
  rfl

/-- The length-5 bias `main_arg18` laid out as a row. -/
theorem V5_v30 : V5 m ρ c main_v30 = shapeCast S1x5 (m ((c : Thread nD τ).loc main_arg18)) shapeCasts_S5_S1x5 := by
  show StableHlo.after hostOps2 (W4 m ρ c) (Proc.devRef .tc main_v30) = _
  after_results
  simp only [keep4_arg18 m ρ c]
  rfl

/-- THE RESULT: region 2 leaves the reference's result in the kernel's result array. -/
theorem result_eq : W6 m ρ c (Proc.devRef .tc main_v31) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W6_arr m ρ c 8).trans ((NodeUpdateArray.array_eq (V5 m ρ) c).trans (by
    unfold NodeUpdateArray.updated
    rw [V5_v1 m ρ c, V5_v25 m ρ c, V5_v28 m ρ c, V5_v4 m ρ c, V5_arg15 m ρ c, V5_v29 m ρ c, V5_arg17 m ρ c, V5_v30 m ρ c]
    exact (Cert.ReferenceIdeal.Stages.updated_eq shapeCasts_S5_S1x5 _ _ _ _ _ _ _ _ _ _ _ _ _ _ _ _ _ _ _).symm))

end Cert.KernelIdeal.Stages

end
-- ==== Proof.lean ====
/-
  A graph-network layer computed two ways: three tiled kernels among host operations, and one whole-array program.

  Both programs take node features, edge features, a global feature row, the edges' sender and receiver indices and
  the weights of three embeddings and two two-layer updates, and return the updated node embeddings:
    n    = node_feats·W_node + b_node,   e = edge_feats·W_edge + b_edge,   g = global_feats·W_glob + b_glob,
    e2   = relu(relu([e | n[senders] | n[receivers] | g]·We1 + be1)·We2 + be2),
    sent = Σ over edges with sender i of e2,   recv = the same at the receivers,
    n2   = relu(relu([n | sent | recv | g]·Wn1 + bn1)·Wn2 + bn2).
  The reference multiplies the joined 20-column matrices by We1 and Wn1 once. The kernel never forms the joins: it
  multiplies each 5-column piece by the matching 5 rows of the weight matrix and adds the four products from the left,
  computing n, e2 and n2 in three row-tiled regions and g, the gathers and the scatter-adds by the same host
  operations as the reference. On the extended reals a sum over the 20 joined columns IS the sum of its four blocks of
  5 (addition is commutative and associative there, infinities included), a change of float format is the identity,
  and each region's tiles are the rows of one whole-array layer function; so the two results are equal entry by entry,
  for any inputs. The precondition (finite inputs) is not used.

  Beside the equality: each of the three programs, from any launch memory, terminates in every weakly fair execution
  without a fault and leaves its argument arrays as launched; and the idealized kernel is the kernel's own text read on
  the extended reals, no operation of it having been rewritten, so nothing further is claimed of the idealization.
-/
import proofs.«123845_j19026705121528_1_alg».proof.Defs
import proofs.«123845_j19026705121528_1_alg».proof.Proof.Gen.Kernel
import proofs.«123845_j19026705121528_1_alg».proof.Proof.Gen.Kernel.Skeleton
import proofs.«123845_j19026705121528_1_alg».proof.Proof.Gen.Kernel.Launch
import proofs.«123845_j19026705121528_1_alg».proof.Proof.Gen.Kernel.Points
import proofs.«123845_j19026705121528_1_alg».proof.Proof.Gen.Kernel.Frame
import proofs.«123845_j19026705121528_1_alg».proof.Proof.Gen.KernelIdeal
import proofs.«123845_j19026705121528_1_alg».proof.Proof.Gen.KernelIdeal.Skeleton
import proofs.«123845_j19026705121528_1_alg».proof.Proof.Gen.KernelIdeal.Launch
import proofs.«123845_j19026705121528_1_alg».proof.Proof.Gen.KernelIdeal.Points
import proofs.«123845_j19026705121528_1_alg».proof.Proof.Gen.KernelIdeal.Frame
import proofs.«123845_j19026705121528_1_alg».proof.Proof.Gen.ReferenceIdeal
import proofs.«123845_j19026705121528_1_alg».proof.Proof.Gen.ReferenceIdeal.Run
import proofs.«123845_j19026705121528_1_alg».proof.Proof.Gen.ReferenceIdeal.Read
import proofs.«123845_j19026705121528_1_alg».proof.Proof.Gen.Pre_finite_inputs
import proofs.«123845_j19026705121528_1_alg».proof.Proof.ResultRun
import proofs.«123845_j19026705121528_1_alg».proof.Proof.KernelStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the launch arrays in their result buffers: the kernel
    because its last region leaves that function there, the reference because it computes it. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Stages.result_eq m ρ c), (h c).2⟩)
      (Cert.KernelIdeal.ResultRun.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [Cert.ReferenceIdeal.Read.val_main_v54_eq, e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
